-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v42)) (v1 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_v45) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S200000x128 : Shape := ⟨2, ![200000, 128]⟩
abbrev S600000 : Shape := ⟨1, ![600000]⟩
abbrev S128x256 : Shape := ⟨2, ![128, 256]⟩
abbrev S128 : Shape := ⟨1, ![128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S200000x128 : S_.BroadcastsInDim S200000x128 (![] : Fin 0 → Fin S200000x128.rank)
  reducesTo_S200000x128_S_d0_1 : S200000x128.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg9 : FVec F S128 .f32) (main_arg10 : FVec F S128x128 .f32) (main_arg11 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg6 : FVec F S128x128 .f32) (main_arg7 : FVec F S128 .f32) (main_arg8 : FVec F S128x256 .f32) (main_arg9 : FVec F S128 .f32) (main_arg10 : FVec F S128x128 .f32) (main_arg11 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg8
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x128 .f32) (main_arg1 : FVec F S200000x128 .f32) (main_arg2 : IVec S600000 32) (main_arg3 : IVec S600000 32) (main_arg4 : FVec F S128x256 .f32) (main_arg5 : FVec F S128 .f32) (main_arg6 : FVec F S128x128 .f32) (main_arg7 : FVec F S128 .f32) (main_arg8 : FVec F S128x256 .f32) (main_arg9 : FVec F S128 .f32) (main_arg10 : FVec F S128x128 .f32) (main_arg11 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S200000x128 .f32 := Host.absf main_arg1
  let main_cst_0 : FVec F S_ .f32 := constant S_ .f32 0x7F800000#32
  let main_v5 : FVec F S200000x128 .f32 := broadcastInDim S200000x128 ![] bcast_S_S200000x128 main_cst_0
  let main_v6 : IVec S200000x128 1 := cmpf .olt main_v4 main_v5
  let main_c_1 : IVec S_ 1 := constantI S_ 1 1#1
  let main_v7 : IVec S_ 1 := (fun x v => Host.reduce IntOp.andi x v reducesTo_S200000x128_S_d0_1 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S100000x128 : Shape := ⟨2, ![100000, 128]⟩
abbrev S200000x128 : Shape := ⟨2, ![200000, 128]⟩
abbrev S600000 : Shape := ⟨1, ![600000]⟩
abbrev S128x256 : Shape := ⟨2, ![128, 256]⟩
abbrev S128 : Shape := ⟨1, ![128]⟩
abbrev S128x128 : Shape := ⟨2, ![128, 128]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S100000x256 : Shape := ⟨2, ![100000, 256]⟩
abbrev S200000 : Shape := ⟨1, ![200000]⟩
abbrev S200000x1 : Shape := ⟨2, ![200000, 1]⟩
abbrev S200000x256 : Shape := ⟨2, ![200000, 256]⟩
abbrev S1x128 : Shape := ⟨2, ![1, 128]⟩
abbrev S5000x256 : Shape := ⟨2, ![5000, 256]⟩
abbrev S5000x128 : Shape := ⟨2, ![5000, 128]⟩

abbrev nBuf : Space → Nat
  | .hbm => 70
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S200000x128, .f32⟩
  | .hbm, ⟨2, _⟩ => ⟨S600000, .i32⟩
  | .hbm, ⟨3, _⟩ => ⟨S600000, .i32⟩
  | .hbm, ⟨4, _⟩ => ⟨S128x256, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x256, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .f32⟩
  | .hbm, ⟨22, _⟩ => ⟨S100000x128, .f32⟩
  | .hbm, ⟨23, _⟩ => ⟨S600000x1, .i32⟩
  | .hbm, ⟨24, _⟩ => ⟨S100000x128, .f32⟩
  | .hbm, ⟨25, _⟩ => ⟨S_, .f32⟩
  | .hbm, ⟨26, _⟩ => ⟨S600000, .f32⟩
  | .hbm, ⟨27, _⟩ => ⟨S_, .f32⟩
  | .hbm, ⟨28, _⟩ => ⟨S100000, .f32⟩
  | .hbm, ⟨29, _⟩ => ⟨S600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x256, .f32⟩
  | .hbm, ⟨38, _⟩ => ⟨S_, .i32⟩
  | .hbm, ⟨39, _⟩ => ⟨S600000, .i32⟩
  | .hbm, ⟨40, _⟩ => ⟨S600000, .i1⟩
  | .hbm, ⟨41, _⟩ => ⟨S_, .i32⟩
  | .hbm, ⟨42, _⟩ => ⟨S600000, .i32⟩
  | .hbm, ⟨43, _⟩ => ⟨S600000, .i32⟩
  | .hbm, ⟨44, _⟩ => ⟨S600000, .i32⟩
  | .hbm, ⟨45, _⟩ => ⟨S600000x1, .i32⟩
  | .hbm, ⟨46, _⟩ => ⟨S600000x128, .f32⟩
  | .hbm, ⟨47, _⟩ => ⟨S_, .f32⟩
  | .hbm, ⟨48, _⟩ => ⟨S200000x128, .f32⟩
  | .hbm, ⟨49, _⟩ => ⟨S600000x1, .i32⟩
  | .hbm, ⟨50, _⟩ => ⟨S200000x128, .f32⟩
  | .hbm, ⟨51, _⟩ => ⟨S_, .f32⟩
  | .hbm, ⟨52, _⟩ => ⟨S600000, .f32⟩
  | .hbm, ⟨53, _⟩ => ⟨S_, .f32⟩
  | .hbm, ⟨54, _⟩ => ⟨S200000, .f32⟩
  | .hbm, ⟨55, _⟩ => ⟨S600000x1, .i32⟩
  | .hbm, ⟨56, _⟩ => ⟨S200000, .f32⟩
  | .hbm, ⟨57, _⟩ => ⟨S_, .f32⟩
  | .hbm, ⟨58, _⟩ => ⟨S200000, .f32⟩
  | .hbm, ⟨59, _⟩ => ⟨S200000, .f32⟩
  | .hbm, ⟨60, _⟩ => ⟨S200000x1, .f32⟩
  | .hbm, ⟨61, _⟩ => ⟨S200000x128, .f32⟩
  | .hbm, ⟨62, _⟩ => ⟨S200000x128, .f32⟩
  | .hbm, ⟨63, _⟩ => ⟨S200000x256, .f32⟩
  | .hbm, ⟨64, _⟩ => ⟨S1x128, .f32⟩
  | .hbm, ⟨65, _⟩ => ⟨S1x128, .f32⟩
  | .hbm, ⟨66, _⟩ => ⟨S100000x128, .f32⟩
  | .hbm, ⟨67, _⟩ => ⟨S1x128, .f32⟩
  | .hbm, ⟨68, _⟩ => ⟨S1x128, .f32⟩
  | .hbm, ⟨69, _⟩ => ⟨S200000x128, .f32⟩
  | .local _ .vmem, ⟨0, _⟩ => ⟨S5000x256, .f32⟩
  | .local _ .vmem, ⟨1, _⟩ => ⟨S5000x256, .f32⟩
  | .local _ .vmem, ⟨2, _⟩ => ⟨S128x256, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S5000x256, .f32⟩
  | .local _ .vmem, ⟨9, _⟩ => ⟨S5000x256, .f32⟩
  | .local _ .vmem, ⟨10, _⟩ => ⟨S128x256, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_cst_8 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_9 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  concatenates_S100000x128_S100000x128_S100000x256_d1 : Shape.Concatenates [S100000x128, S100000x128] S100000x256 1
  bcast_S_S200000x128 : S_.BroadcastsInDim S200000x128 (![] : Fin 0 → Fin S200000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  concatenates_S200000x128_S200000x128_S200000x256_d1 : Shape.Concatenates [S200000x128, S200000x128] S200000x256 1
  shapeCasts_S128_S1x128 : S128.ShapeCasts S1x128
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S5000x128_S5000x128_0_0 : ∀ a, (![0, 0] : Fin 2 → Nat) a + S5000x128.size a ≤ S5000x128.size a
  h_S5000x128 : 0 < S5000x128.numel
  gather_S200000x128_S600000x1_S600000x128_1_0_n_n_0_1_1128_wf : GatherDims.WF S200000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  gather_S100000x128_S600000x1_S600000x128_1_0_n_n_0_1_1128_wf : GatherDims.WF S100000x128 S600000x1 S600000x128 [1] [0] [] [0] [] 1 ![1, 128]
  scatter_S200000x128_S600000x1_S600000x128_1_0_0_1_wf : ScatterDims.WF S200000x128 S600000x1 S600000x128 [1] [0] [0] 1
  scatter_S200000_S600000x1_S600000_n_0_0_1_wf : ScatterDims.WF S200000 S600000x1 S600000 [] [0] [0] 1
  dot_S5000x256_S128x256_S5000x128_1_1_0_0_n_n_wf : DotDims.WF S5000x256 S128x256 S5000x128 [1] [1] [0] [0] [] []
  dot_S5000x128_S128x128_S5000x128_1_1_0_0_n_n_wf : DotDims.WF S5000x128 S128x128 S5000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S200000x256.size a
  hwx1_0 : ∀ i : grid1.Coords, EltTy.bits .f32 = 32 ∨ (Rect.block (s := S200000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S200000x128.size a
  hwx1_5 : ∀ i : grid1.Coords, EltTy.bits .f32 = 32 ∨ (Rect.block (s := S200000x128) S5000x128.size (cc1_transform_5 i) (hinb1_5 i)).WholeWords (EltTy.packing .f32)

variable [Facts₀]

def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def scatter_S200000_S600000x1_S600000_n_0_0_1 : ScatterDims S200000 S600000x1 S600000 where
  updateWindowDims := []
  insertedWindowDims := [0]
  scatterDimsToOperandDims := [0]
  indexVectorDim := 1
  wf := scatter_S200000_S600000x1_S600000_n_0_0_1_wf
def dot_S5000x256_S128x256_S5000x128_1_1_0_0_n_n : DotDims S5000x256 S128x256 S5000x128 where
  lhsContracting := [1]
  rhsContracting := [1]
  lhsNonContracting := [0]
  rhsNonContracting := [0]
  lhsBatch := []
  rhsBatch := []
  wf := dot_S5000x256_S128x256_S5000x128_1_1_0_0_n_n_wf
def dot_S5000x128_S128x128_S5000x128_1_1_0_0_n_n : DotDims S5000x128 S128x128 S5000x128 where
  lhsContracting := [1]
  rhsContracting := [1]
  lhsNonContracting := [0]
  rhsNonContracting := [0]
  lhsBatch := []
  rhsBatch := []
  wf := dot_S5000x128_S128x128_S5000x128_1_1_0_0_n_n_wf

abbrev win0_0 : Pipeline.Window sig grid0 :=
  Pipeline.Window.ofSpec (Memref.whole main_v19) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v40) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v41) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v42) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v43) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S200000x128 : Shape := ⟨2, ![200000, 128]⟩
abbrev S600000 : Shape := ⟨1, ![600000]⟩
abbrev S128x256 : Shape := ⟨2, ![128, 256]⟩
abbrev S128 : Shape := ⟨1, ![128]⟩
abbrev S128x128 : Shape := ⟨2, ![128, 128]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S100000x256 : Shape := ⟨2, ![100000, 256]⟩
abbrev S200000 : Shape := ⟨1, ![200000]⟩
abbrev S200000x1 : Shape := ⟨2, ![200000, 1]⟩
abbrev S200000x256 : Shape := ⟨2, ![200000, 256]⟩
abbrev S256x128 : Shape := ⟨2, ![256, 128]⟩
abbrev S1x128 : Shape := ⟨2, ![1, 128]⟩

abbrev nBuf : Space → Nat
  | .hbm => 116
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S200000x128, .f32⟩
  | .hbm, ⟨2, _⟩ => ⟨S600000, .i32⟩
  | .hbm, ⟨3, _⟩ => ⟨S600000, .i32⟩
  | .hbm, ⟨4, _⟩ => ⟨S128x256, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x256, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .f32⟩
  | .hbm, ⟨22, _⟩ => ⟨S100000x128, .f32⟩
  | .hbm, ⟨23, _⟩ => ⟨S600000x1, .i32⟩
  | .hbm, ⟨24, _⟩ => ⟨S100000x128, .f32⟩
  | .hbm, ⟨25, _⟩ => ⟨S_, .f32⟩
  | .hbm, ⟨26, _⟩ => ⟨S600000, .f32⟩
  | .hbm, ⟨27, _⟩ => ⟨S_, .f32⟩
  | .hbm, ⟨28, _⟩ => ⟨S100000, .f32⟩
  | .hbm, ⟨29, _⟩ => ⟨S600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x256, .f32⟩
  | .hbm, ⟨38, _⟩ => ⟨S_, .i32⟩
  | .hbm, ⟨39, _⟩ => ⟨S600000, .i32⟩
  | .hbm, ⟨40, _⟩ => ⟨S600000, .i1⟩
  | .hbm, ⟨41, _⟩ => ⟨S_, .i32⟩
  | .hbm, ⟨42, _⟩ => ⟨S600000, .i32⟩
  | .hbm, ⟨43, _⟩ => ⟨S600000, .i32⟩
  | .hbm, ⟨44, _⟩ => ⟨S600000, .i32⟩
  | .hbm, ⟨45, _⟩ => ⟨S600000x1, .i32⟩
  | .hbm, ⟨46, _⟩ => ⟨S600000x128, .f32⟩
  | .hbm, ⟨47, _⟩ => ⟨S_, .f32⟩
  | .hbm, ⟨48, _⟩ => ⟨S200000x128, .f32⟩
  | .hbm, ⟨49, _⟩ => ⟨S600000x1, .i32⟩
  | .hbm, ⟨50, _⟩ => ⟨S200000x128, .f32⟩
  | .hbm, ⟨51, _⟩ => ⟨S_, .f32⟩
  | .hbm, ⟨52, _⟩ => ⟨S600000, .f32⟩
  | .hbm, ⟨53, _⟩ => ⟨S_, .f32⟩
  | .hbm, ⟨54, _⟩ => ⟨S200000, .f32⟩
  | .hbm, ⟨55, _⟩ => ⟨S600000x1, .i32⟩
  | .hbm, ⟨56, _⟩ => ⟨S200000, .f32⟩
  | .hbm, ⟨57, _⟩ => ⟨S_, .f32⟩
  | .hbm, ⟨58, _⟩ => ⟨S200000, .f32⟩
  | .hbm, ⟨59, _⟩ => ⟨S200000, .f32⟩
  | .hbm, ⟨60, _⟩ => ⟨S200000x1, .f32⟩
  | .hbm, ⟨61, _⟩ => ⟨S200000x128, .f32⟩
  | .hbm, ⟨62, _⟩ => ⟨S200000x128, .f32⟩
  | .hbm, ⟨63, _⟩ => ⟨S200000x256, .f32⟩
  | .hbm, ⟨64, _⟩ => ⟨S256x128, .f32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S_, .f32⟩
  | .hbm, ⟨71, _⟩ => ⟨S100000x128, .f32⟩
  | .hbm, ⟨72, _⟩ => ⟨S100000x128, .i1⟩
  | .hbm, ⟨73, _⟩ => ⟨S_, .f32⟩
  | .hbm, ⟨74, _⟩ => ⟨S100000x128, .f32⟩
  | .hbm, ⟨75, _⟩ => ⟨S100000x128, .f32⟩
  | .hbm, ⟨76, _⟩ => ⟨S100000x128, .f32⟩
  | .hbm, ⟨77, _⟩ => ⟨S128x128, .f32⟩
  | .hbm, ⟨78, _⟩ => ⟨S100000x128, .f32⟩
  | .hbm, ⟨79, _⟩ => ⟨S1x128, .f32⟩
  | .hbm, ⟨80, _⟩ => ⟨S100000x128, .f32⟩
  | .hbm, ⟨81, _⟩ => ⟨S100000x128, .f32⟩
  | .hbm, ⟨82, _⟩ => ⟨S_, .f32⟩
  | .hbm, ⟨83, _⟩ => ⟨S_, .f32⟩
  | .hbm, ⟨84, _⟩ => ⟨S100000x128, .f32⟩
  | .hbm, ⟨85, _⟩ => ⟨S100000x128, .i1⟩
  | .hbm, ⟨86, _⟩ => ⟨S_, .f32⟩
  | .hbm, ⟨87, _⟩ => ⟨S100000x128, .f32⟩
  | .hbm, ⟨88, _⟩ => ⟨S100000x128, .f32⟩
  | .hbm, ⟨89, _⟩ => ⟨S100000x128, .f32⟩
  | .hbm, ⟨90, _⟩ => ⟨S256x128, .f32⟩
  | .hbm, ⟨91, _⟩ => ⟨S200000x128, .f32⟩
  | .hbm, ⟨92, _⟩ => ⟨S1x128, .f32⟩
  | .hbm, ⟨93, _⟩ => ⟨S200000x128, .f32⟩
  | .hbm, ⟨94, _⟩ => ⟨S200000x128, .f32⟩
  | .hbm, ⟨95, _⟩ => ⟨S_, .f32⟩
  | .hbm, ⟨96, _⟩ => ⟨S_, .f32⟩
  | .hbm, ⟨97, _⟩ => ⟨S200000x128, .f32⟩
  | .hbm, ⟨98, _⟩ => ⟨S200000x128, .i1⟩
  | .hbm, ⟨99, _⟩ => ⟨S_, .f32⟩
  | .hbm, ⟨100, _⟩ => ⟨S200000x128, .f32⟩
  | .hbm, ⟨101, _⟩ => ⟨S200000x128, .f32⟩
  | .hbm, ⟨102, _⟩ => ⟨S200000x128, .f32⟩
  | .hbm, ⟨103, _⟩ => ⟨S128x128, .f32⟩
  | .hbm, ⟨104, _⟩ => ⟨S200000x128, .f32⟩
  | .hbm, ⟨105, _⟩ => ⟨S1x128, .f32⟩
  | .hbm, ⟨106, _⟩ => ⟨S200000x128, .f32⟩
  | .hbm, ⟨107, _⟩ => ⟨S200000x128, .f32⟩
  | .hbm, ⟨108, _⟩ => ⟨S_, .f32⟩
  | .hbm, ⟨109, _⟩ => ⟨S_, .f32⟩
  | .hbm, ⟨110, _⟩ => ⟨S200000x128, .f32⟩
  | .hbm, ⟨111, _⟩ => ⟨S200000x128, .i1⟩
  | .hbm, ⟨112, _⟩ => ⟨S_, .f32⟩
  | .hbm, ⟨113, _⟩ => ⟨S200000x128, .f32⟩
  | .hbm, ⟨114, _⟩ => ⟨S200000x128, .f32⟩
  | .hbm, ⟨115, _⟩ => ⟨S200000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_c_5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_cst_8 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_9 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_10 : Ref sig .tc := ⟨.hbm, 69, rfl⟩
abbrev main_call0_cst : Ref sig .tc := ⟨.hbm, 70, rfl⟩
abbrev main_call0_v0 : Ref sig .tc := ⟨.hbm, 71, rfl⟩
abbrev main_call0_v1 : Ref sig .tc := ⟨.hbm, 72, rfl⟩
abbrev main_call0_v2 : Ref sig .tc := ⟨.hbm, 73, rfl⟩
abbrev main_call0_v3 : Ref sig .tc := ⟨.hbm, 74, rfl⟩
abbrev main_call0_v4 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_11 : Ref sig .tc := ⟨.hbm, 82, rfl⟩
abbrev main_call1_cst : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_cst_12 : Ref sig .tc := ⟨.hbm, 95, rfl⟩
abbrev main_call2_cst : Ref sig .tc := ⟨.hbm, 96, rfl⟩
abbrev main_call2_v0 : Ref sig .tc := ⟨.hbm, 97, rfl⟩
abbrev main_call2_v1 : Ref sig .tc := ⟨.hbm, 98, rfl⟩
abbrev main_call2_v2 : Ref sig .tc := ⟨.hbm, 99, rfl⟩
abbrev main_call2_v3 : Ref sig .tc := ⟨.hbm, 100, rfl⟩
abbrev main_call2_v4 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_cst_13 : Ref sig .tc := ⟨.hbm, 108, rfl⟩
abbrev main_call3_cst : Ref sig .tc := ⟨.hbm, 109, rfl⟩
abbrev main_call3_v0 : Ref sig .tc := ⟨.hbm, 110, rfl⟩
abbrev main_call3_v1 : Ref sig .tc := ⟨.hbm, 111, rfl⟩
abbrev main_call3_v2 : Ref sig .tc := ⟨.hbm, 112, rfl⟩
abbrev main_call3_v3 : Ref sig .tc := ⟨.hbm, 113, rfl⟩
abbrev main_call3_v4 : Ref sig .tc := ⟨.hbm, 114, rfl⟩
abbrev main_v63 : Ref sig .tc := ⟨.hbm, 115, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  concatenates_S100000x128_S100000x128_S100000x256_d1 : Shape.Concatenates [S100000x128, S100000x128] S100000x256 1
  bcast_S_S200000x128 : S_.BroadcastsInDim S200000x128 (![] : Fin 0 → Fin S200000x128.rank)
  bcast_S_S200000 : S_.BroadcastsInDim S200000 (![] : Fin 0 → Fin S200000.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  concatenates_S200000x128_S200000x128_S200000x256_d1 : Shape.Concatenates [S200000x128, S200000x128] S200000x256 1
  transposes_S128x256_S256x128_1_0 : S128x256.Transposes [1, 0] S256x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S128x128_S128x128_1_0 : S128x128.Transposes [1, 0] S128x128
  bcast_S1x128_S200000x128_0_1 : S1x128.BroadcastsInDim S200000x128 (![0, 1] : Fin 2 → Fin S200000x128.rank)
  gather_S200000x128_S600000x1_S600000x128_1_0_n_n_0_1_1128_wf : GatherDims.WF S200000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  gather_S100000x128_S600000x1_S600000x128_1_0_n_n_0_1_1128_wf : GatherDims.WF S100000x128 S600000x1 S600000x128 [1] [0] [] [0] [] 1 ![1, 128]
  scatter_S200000x128_S600000x1_S600000x128_1_0_0_1_wf : ScatterDims.WF S200000x128 S600000x1 S600000x128 [1] [0] [0] 1
  scatter_S200000_S600000x1_S600000_n_0_0_1_wf : ScatterDims.WF S200000 S600000x1 S600000 [] [0] [0] 1
  dot_S100000x256_S256x128_S100000x128_1_0_0_1_n_n_wf : DotDims.WF S100000x256 S256x128 S100000x128 [1] [0] [0] [1] [] []
  dot_S100000x128_S128x128_S100000x128_1_0_0_1_n_n_wf : DotDims.WF S100000x128 S128x128 S100000x128 [1] [0] [0] [1] [] []
  dot_S200000x256_S256x128_S200000x128_1_0_0_1_n_n_wf : DotDims.WF S200000x256 S256x128 S200000x128 [1] [0] [0] [1] [] []
  dot_S200000x128_S128x128_S200000x128_1_0_0_1_n_n_wf : DotDims.WF S200000x128 S128x128 S200000x128 [1] [0] [0] [1] [] []

variable [Facts₀]

def gather_S200000x128_S600000x1_S600000x128_1_0_n_n_0_1_1128 : GatherDims S200000x128 S600000x1 S600000x128 where
  offsetDims := [1]
  collapsedSliceDims := [0]
  operandBatchingDims := []
  startIndicesBatchingDims := []
  startIndexMap := [0]
  indexVectorDim := 1
  sliceSizes := ![1, 128]
  wf := gather_S200000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S200000x128_S600000x1_S600000x128_1_0_0_1 : ScatterDims S200000x128 S600000x1 S600000x128 where
  updateWindowDims := [1]
  insertedWindowDims := [0]
  scatterDimsToOperandDims := [0]
  indexVectorDim := 1
  wf := scatter_S200000x128_S600000x1_S600000x128_1_0_0_1_wf
def scatter_S200000_S600000x1_S600000_n_0_0_1 : ScatterDims S200000 S600000x1 S600000 where
  updateWindowDims := []
  insertedWindowDims := [0]
  scatterDimsToOperandDims := [0]
  indexVectorDim := 1
  wf := scatter_S200000_S600000x1_S600000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S200000x256_S256x128_S200000x128_1_0_0_1_n_n : DotDims S200000x256 S256x128 S200000x128 where
  lhsContracting := [1]
  rhsContracting := [0]
  lhsNonContracting := [0]
  rhsNonContracting := [1]
  lhsBatch := []
  rhsBatch := []
  wf := dot_S200000x256_S256x128_S200000x128_1_0_0_1_n_n_wf
def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf

class Facts : Prop extends Facts₀ where

variable [Facts]
-- ==== Proof.KerRun.lean ====
/-
  The kernel program's run with its two results named.

  The program is two stretches of host operations and two pipelined regions. Its run leaves, in every buffer that lives
  for the whole program, the contents obtained by folding the host operations and the regions' write-backs over the
  launch memory. Here the two result buffers are read in that final state: each holds what the fold holds there, and
  the twelve argument arrays hold what they were launched with.
-/
import proofs.«161651_j40544491274781_1_alg».proof.Proof.Gen.KernelIdeal.Frame

set_option maxRecDepth 16384

noncomputable section

namespace Cert.KernelIdeal.KerRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates; at the end each result buffer holds the final fold's contents
    and each argument array its launch contents. -/
theorem run_fold : θ_run defs (onTc (τ := τ) (main (F := F))) ⟨m, fun _ => 0, ρ⟩ (fun r => ∀ c : Dev nD,
      r.2.mem ((c.tc : Thread nD τ).loc main_v42) = W4 m ρ c (Proc.devRef .tc main_v42)
      ∧ r.2.mem ((c.tc : Thread nD τ).loc main_v45) = W4 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v42 (by decide)),
       h c _ (mem_uc main_v45 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.KernelIdeal.KerRun

end
-- ==== Proof.HeadSpec.lean ====
/-
  The two-layer head, entry by entry, on the extended reals.

  A row h of 256 numbers goes through a first linear layer (128 outputs: the dot product of h with row k of the first
  weight table, plus the bias entry k), a leaky rectifier, a second linear layer (128 outputs: the dot product of the
  rectified row with row q of the second weight table, plus the bias entry q), and the leaky rectifier again. The leaky
  rectifier keeps a number that is at least zero and multiplies any other by the slope, the binary32 number nearest 0.2;
  it is written with the comparison and the selection that both programs use, so that neither side has to open them.
  `headTable` applies the head to every row of an [N, 256] table of inputs.
-/
import Idealize.ShloMosaic.PureOps.Ideal
import Idealize.ShloMosaic.Lib.ValueIdx

noncomputable section

open scoped BigOperators

namespace Cert.HeadSpec

open Idealize.ShloMosaic Idealize.ShloMosaic.ValueIdx

/-- The leaky rectifier: x where x is at least zero, x times the slope elsewhere. -/
def leaky (x : EReal) : EReal :=
  Scalar.select (FloatOps.cmpf (F := Ideal) (φ := .f32) .oge x (Ideal.ofBits .f32 0x00000000#32)) x
    (x * Ideal.ofBits .f32 0x3E4CCCCD#32)

/-- One linear layer's output: the dot product of the input row with a weight row, plus a bias entry. -/
def affine {K : ℕ} (h w : Fin K → EReal) (b : EReal) : EReal := (∑ k : Fin K, h k * w k) + b

/-- Entry q of the head's output for the input row h. -/
def headEntry (h : Fin 256 → EReal) (w1 : Fin 128 → Fin 256 → EReal) (b1 : Fin 128 → EReal)
    (w2 : Fin 128 → Fin 128 → EReal) (b2 : Fin 128 → EReal) (q : Fin 128) : EReal :=
  leaky (affine (fun k => leaky (affine h (w1 k) (b1 k))) (w2 q) (b2 q))

/-- The head applied to every row of an [N, 256] table: entry (p, q) is the head's entry q for row p. -/
def headTable {N : ℕ} (hv : (⟨2, ![N, 256]⟩ : Shape).Idx → EReal) (W1 : (⟨2, ![128, 256]⟩ : Shape).Idx → EReal)
    (B1 : (⟨1, ![128]⟩ : Shape).Idx → EReal) (W2 : (⟨2, ![128, 128]⟩ : Shape).Idx → EReal)
    (B2 : (⟨1, ![128]⟩ : Shape).Idx → EReal) : (⟨2, ![N, 128]⟩ : Shape).Idx → EReal :=
  fun i => headEntry (fun j => hv (ix2 (i 0) j)) (fun k j => W1 (ix2 k j)) (fun k => B1 (ix1 k))
    (fun q k => W2 (ix2 q k)) (fun k => B2 (ix1 k)) (i 1)

theorem headTable_apply {N : ℕ} (hv : (⟨2, ![N, 256]⟩ : Shape).Idx → EReal) (W1 : (⟨2, ![128, 256]⟩ : Shape).Idx → EReal)
    (B1 : (⟨1, ![128]⟩ : Shape).Idx → EReal) (W2 : (⟨2, ![128, 128]⟩ : Shape).Idx → EReal)
    (B2 : (⟨1, ![128]⟩ : Shape).Idx → EReal) (p : Fin N) (q : Fin 128) :
    headTable hv W1 B1 W2 B2 (ix2 p q)
      = headEntry (fun j => hv (ix2 p j)) (fun k j => W1 (ix2 k j)) (fun k => B1 (ix1 k))
          (fun q k => W2 (ix2 q k)) (fun k => B2 (ix1 k)) q := rfl

end Cert.HeadSpec

end
-- ==== Proof.LibDotTransposed.lean ====
/-
  A matrix product against a transposed right operand, read at an index, on the extended reals.

  For dimension numbers that contract the second axis of BOTH operands — an [M, K] array against a [P, K] array, the
  product of the first with the transpose of the second — the product into a zero accumulator, read at row `p` and
  column `q`, is `Σ k, l (p, k) · r (q, k)`: the dot product of row `p` of the left operand with row `q` of the right
  one. The contraction's index set has one axis; the sum is re-indexed through that axis's coordinate. The two facts
  about the free axes (the left index keeps the row, the right index keeps the output's column as its row) are taken as
  hypotheses, since for given dimension numbers they hold by computation.
-/
import Idealize.ShloMosaic.PureOps.Ideal.Laws
import Idealize.ShloMosaic.Lib.ValueIdx

noncomputable section

open scoped BigOperators

namespace Cert.LibDotTransposed

open Idealize.ShloMosaic Idealize.ShloMosaic.ValueIdx

/-- The product with the transposed right operand, into the zero accumulator, at (p, q): the sum over the contraction
    coordinate of the left operand at (p, k) times the right operand at (q, k). -/
theorem matmul_zero_apply {M K P : ℕ} {φ₁ φ₂ : FTy}
    (D : DotDims ⟨2, ![M, K]⟩ ⟨2, ![P, K]⟩ ⟨2, ![M, P]⟩)
    (hlc : D.lhsContracting = [1]) (hrc : D.rhsContracting = [1])
    (hl0 : ∀ (j : (⟨2, ![M, P]⟩ : Shape).Idx) (c : D.contr.Idx), (D.lhsIdx j c 0).val = (j 0).val)
    (hr0 : ∀ (j : (⟨2, ![M, P]⟩ : Shape).Idx) (c : D.contr.Idx), (D.rhsIdx j c 0).val = (j 1).val)
    (hrank : D.contr.rank = 1) (hsize : D.contr.size ⟨0, by omega⟩ = K)
    (prec : Option ContractPrecision)
    (l : FVec Ideal ⟨2, ![M, K]⟩ φ₁) (r : FVec Ideal ⟨2, ![P, K]⟩ φ₂) (p : Fin M) (q : Fin P) :
    FloatOps.matmul D prec l r (constant ⟨2, ![M, P]⟩ .f32 0x00000000#32) (ix2 p q)
      = ∑ k : Fin K, l (ix2 p k) * r (ix2 q k) := by
  rw [Ideal.matmul_constant_zero_apply, ← Equiv.sum_comp (contrEquiv1 D K hrank hsize).symm]
  refine Finset.sum_congr rfl fun k _ => ?_
  have hk := contrEquiv1_symm_val D K hrank hsize k
  have el : D.lhsIdx (ix2 p q) ((contrEquiv1 D K hrank hsize).symm k) = ix2 p k := funext fun a => Fin.ext (by
    match a with
    | ⟨0, _⟩ => exact hl0 _ _
    | ⟨1, _⟩ => exact (D.lhsIdx_val_of_single hlc _ _).trans hk)
  have er : D.rhsIdx (ix2 p q) ((contrEquiv1 D K hrank hsize).symm k) = ix2 q k := funext fun a => Fin.ext (by
    match a with
    | ⟨0, _⟩ => exact hr0 _ _
    | ⟨1, _⟩ => exact (D.rhsIdx_val_of_single hrc _ _).trans hk)
  rw [el, er]

end Cert.LibDotTransposed

end
-- ==== Proof.HeadBlock.lean ====
/-
  What one grid point's body computes, entry by entry.

  The body reads a [5000, 256] block of input rows, the two weight tables and the two bias rows, and stores a [5000, 128]
  block. On the extended reals a change of float format is the identity and a matrix product into a zero accumulator is a
  plain sum, so entry (p, q) of the stored block is the head's entry q for row p of the input block: the first product
  contracts the input row against row k of the first weight table, the bias row is repeated over the 5000 rows, the
  comparison with zero selects between the sum and the sum times the slope, and the second layer does the same with the
  second weight table and bias row.
-/
import proofs.«161651_j40544491274781_1_alg».proof.Proof.Gen.KernelIdeal.Skeleton
import proofs.«161651_j40544491274781_1_alg».proof.Proof.HeadSpec
import proofs.«161651_j40544491274781_1_alg».proof.Proof.LibDotTransposed
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.HeadBlock

open Cert.KernelIdeal Cert.KernelIdeal.Gen Cert.HeadSpec
open Idealize.ShloMosaic Idealize.ShloMosaic.ValueIdx

/-- One layer of the body at (p, q): the row-by-row product into zero plus the repeated bias row, then the selection
    between that sum and its multiple by the slope, is the leaky rectifier of the affine form of row p against weight
    row q. -/
theorem layer_apply {M K P : ℕ} {φ₁ φ₂ : FTy}
    (D : DotDims ⟨2, ![M, K]⟩ ⟨2, ![P, K]⟩ ⟨2, ![M, P]⟩)
    (hlc : D.lhsContracting = [1]) (hrc : D.rhsContracting = [1])
    (hl0 : ∀ (j : (⟨2, ![M, P]⟩ : Shape).Idx) (c : D.contr.Idx), (D.lhsIdx j c 0).val = (j 0).val)
    (hr0 : ∀ (j : (⟨2, ![M, P]⟩ : Shape).Idx) (c : D.contr.Idx), (D.rhsIdx j c 0).val = (j 1).val)
    (hrank : D.contr.rank = 1) (hsize : D.contr.size ⟨0, by omega⟩ = K)
    (l : FVec Ideal ⟨2, ![M, K]⟩ φ₁) (r : FVec Ideal ⟨2, ![P, K]⟩ φ₂)
    (b : FVec Ideal ⟨2, ![1, P]⟩ .f32) (hb : (⟨2, ![1, P]⟩ : Shape).Broadcasts ⟨2, ![M, P]⟩) (p : Fin M) (q : Fin P) :
    (select
        (cmpf .oge
          (addf (FloatOps.matmul D none l r (constant (F := Ideal) ⟨2, ![M, P]⟩ .f32 0x00000000#32)) (broadcastTo ⟨2, ![M, P]⟩ b hb))
          (broadcast ⟨2, ![M, P]⟩ (Scalar.ofBits (F := Ideal) .f32 0x00000000#32)))
        (addf (FloatOps.matmul D none l r (constant (F := Ideal) ⟨2, ![M, P]⟩ .f32 0x00000000#32)) (broadcastTo ⟨2, ![M, P]⟩ b hb))
        (mulf
          (addf (FloatOps.matmul D none l r (constant (F := Ideal) ⟨2, ![M, P]⟩ .f32 0x00000000#32)) (broadcastTo ⟨2, ![M, P]⟩ b hb))
          (broadcast ⟨2, ![M, P]⟩ (Scalar.ofBits (F := Ideal) .f32 0x3E4CCCCD#32))) : FVec Ideal ⟨2, ![M, P]⟩ .f32) (ix2 p q)
      = leaky (affine (fun k => l (ix2 p k)) (fun k => r (ix2 q k)) (b (ix2 (0 : Fin 1) q))) := by
  have hsum := Cert.LibDotTransposed.matmul_zero_apply D hlc hrc hl0 hr0 hrank hsize none l r p q
  have hrow := broadcastTo_1b_ab_apply b hb p q
  show Scalar.select (FloatOps.cmpf .oge (FloatOps.matmul D none l r (constant (F := Ideal) ⟨2, ![M, P]⟩ .f32 0x00000000#32) (ix2 p q)
        + broadcastTo ⟨2, ![M, P]⟩ b hb (ix2 p q)) (Ideal.ofBits .f32 0x00000000#32))
      (FloatOps.matmul D none l r (constant (F := Ideal) ⟨2, ![M, P]⟩ .f32 0x00000000#32) (ix2 p q) + broadcastTo ⟨2, ![M, P]⟩ b hb (ix2 p q))
      ((FloatOps.matmul D none l r (constant (F := Ideal) ⟨2, ![M, P]⟩ .f32 0x00000000#32) (ix2 p q) + broadcastTo ⟨2, ![M, P]⟩ b hb (ix2 p q))
        * Ideal.ofBits .f32 0x3E4CCCCD#32) = _
  rw [hsum, hrow]
  rfl

/-- The head applied to every row of an [N, 256] table, the two biases given as [1, 128] rows. -/
def headRows {N : ℕ} (hv : (⟨2, ![N, 256]⟩ : Shape).Idx → EReal) (W1 : (⟨2, ![128, 256]⟩ : Shape).Idx → EReal)
    (R1 : (⟨2, ![1, 128]⟩ : Shape).Idx → EReal) (W2 : (⟨2, ![128, 128]⟩ : Shape).Idx → EReal)
    (R2 : (⟨2, ![1, 128]⟩ : Shape).Idx → EReal) : (⟨2, ![N, 128]⟩ : Shape).Idx → EReal :=
  fun i => headEntry (fun j => hv (ix2 (i 0) j)) (fun k j => W1 (ix2 k j)) (fun k => R1 (ix2 (0 : Fin 1) k))
    (fun q k => W2 (ix2 q k)) (fun k => R2 (ix2 (0 : Fin 1) k)) (i 1)

/-- With each bias row the reshaped bias vector, the head over rows is the head over vectors. -/
theorem headRows_reshaped {N : ℕ} (hv : (⟨2, ![N, 256]⟩ : Shape).Idx → EReal) (W1 : (⟨2, ![128, 256]⟩ : Shape).Idx → EReal)
    (B1 : (⟨1, ![128]⟩ : Shape).Idx → EReal) (W2 : (⟨2, ![128, 128]⟩ : Shape).Idx → EReal)
    (B2 : (⟨1, ![128]⟩ : Shape).Idx → EReal) (h : (⟨1, ![128]⟩ : Shape).ShapeCasts ⟨2, ![1, 128]⟩) :
    headRows hv W1 (shapeCast ⟨2, ![1, 128]⟩ B1 h) W2 (shapeCast ⟨2, ![1, 128]⟩ B2 h) = headTable hv W1 B1 W2 B2 := by
  funext i
  unfold headRows headTable
  simp only [shapeCast_a_1a_apply]

variable [Facts]
open Facts₀ Facts

/-- Entry (p, q) of the block region 0's body stores is the head's entry q for row p of its input block. -/
theorem pay0_apply (x0 : Vec Ideal S5000x256 .f32) (x1 : Vec Ideal S128x256 .f32) (x2 : Vec Ideal S1x128 .f32)
    (x3 : Vec Ideal S128x128 .f32) (x4 : Vec Ideal S1x128 .f32) (p : Fin 5000) (q : Fin 128) :
    k0_pay1 (F := Ideal) x0 x1 x2 x3 x4 (ix2 p q)
      = headEntry (fun j => x0 (ix2 p j)) (fun k j => x1 (ix2 k j)) (fun k => x2 (ix2 (0 : Fin 1) k))
          (fun q k => x3 (ix2 q k)) (fun k => x4 (ix2 (0 : Fin 1) k)) q := by
  unfold k0_pay1
  simp only [shapeCast_self]
  refine (layer_apply dot_S5000x128_S128x128_S5000x128_1_1_0_0_n_n rfl rfl (fun _ _ => rfl) (fun _ _ => rfl) rfl rfl
    _ _ x4 _ p q).trans ?_
  unfold headEntry
  refine congrArg leaky ?_
  refine congrArg (fun f => affine f (fun k => x3 (ix2 q k)) (x4 (ix2 (0 : Fin 1) q))) (funext fun k => ?_)
  exact layer_apply dot_S5000x256_S128x256_S5000x128_1_1_0_0_n_n rfl rfl (fun _ _ => rfl) (fun _ _ => rfl) rfl rfl
    _ _ x2 _ p k

/-- Entry (p, q) of the block region 1's body stores is the head's entry q for row p of its input block. -/
theorem pay1_apply (x0 : Vec Ideal S5000x256 .f32) (x1 : Vec Ideal S128x256 .f32) (x2 : Vec Ideal S1x128 .f32)
    (x3 : Vec Ideal S128x128 .f32) (x4 : Vec Ideal S1x128 .f32) (p : Fin 5000) (q : Fin 128) :
    k1_pay1 (F := Ideal) x0 x1 x2 x3 x4 (ix2 p q)
      = headEntry (fun j => x0 (ix2 p j)) (fun k j => x1 (ix2 k j)) (fun k => x2 (ix2 (0 : Fin 1) k))
          (fun q k => x3 (ix2 q k)) (fun k => x4 (ix2 (0 : Fin 1) k)) q := by
  unfold k1_pay1
  simp only [shapeCast_self]
  refine (layer_apply dot_S5000x128_S128x128_S5000x128_1_1_0_0_n_n rfl rfl (fun _ _ => rfl) (fun _ _ => rfl) rfl rfl
    _ _ x4 _ p q).trans ?_
  unfold headEntry
  refine congrArg leaky ?_
  refine congrArg (fun f => affine f (fun k => x3 (ix2 q k)) (x4 (ix2 (0 : Fin 1) q))) (funext fun k => ?_)
  exact layer_apply dot_S5000x256_S128x256_S5000x128_1_1_0_0_n_n rfl rfl (fun _ _ => rfl) (fun _ _ => rfl) rfl rfl
    _ _ x2 _ p k

end Cert.KernelIdeal.HeadBlock

end
-- ==== Proof.KerBlocks.lean ====
/-
  From blocks to tables: what each region leaves in its result table.

  A region walks its grid; at point t it fetches rows 5000·t … 5000·t + 4999 of its [N, 256] input table (the weight
  tables and bias rows whole), runs the body, and writes the [5000, 128] block back to the same rows of the result
  table. The blocks tile the table, and the body's block is the head applied row by row, so the table ends as the head
  applied to every row of the input table. Everything here is stated for arbitrary contents V of the buffers at the
  region's entry.
-/
import proofs.«161651_j40544491274781_1_alg».proof.Proof.Gen.KernelIdeal.Frame
import proofs.«161651_j40544491274781_1_alg».proof.Proof.HeadBlock
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KerBlocks

open Cert.KernelIdeal Cert.KernelIdeal.Gen Cert.KernelIdeal.HeadBlock Cert.HeadSpec
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-! ## Region 0: 20 points, rows `5000·t … 5000·t + 4999` of the [100000, ·] tables at point t -/

/-- The printed index maps over the grid: the row-blocked windows are at block (t, 0), the resident ones at (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The input rows' block at point t holds rows 5000·t … of the table. -/
theorem blk0_0 (c : Dev nD) (t : Fin cfg0.N) (p : Fin 5000) (j : Fin 256) (h : t.val * 5000 + p.val < 100000) :
    iblk0 V c 0 t (ix2 p j) = (V c main_v19 : S100000x256.Idx → EReal) (ix2 ⟨t.val * 5000 + p.val, h⟩ j) := by
  unfold iblk0
  rw [View.read_apply]
  show V c main_v19 (((cfg0.win 0).blk t).view.emb (ix2 p j)) = _
  refine congrArg (V c main_v19) (funext fun a => Fin.ext ?_)
  obtain ⟨e0, e1, -⟩ := idx0 t
  match a with
  | ⟨0, _⟩ => show win0_0.index t (0 : Fin 2) * 5000 + 1 * p.val = t.val * 5000 + p.val; rw [e0]; omega
  | ⟨1, _⟩ => show win0_0.index t (1 : Fin 2) * 256 + 1 * j.val = j.val; rw [e1]; omega

/-- The first weight table's block is the whole table at every point. -/
theorem blk0_1 (c : Dev nD) (t : Fin cfg0.N) (a : Fin 128) (j : Fin 256) :
    iblk0 V c 1 t (ix2 a j) = (V c main_arg4 : S128x256.Idx → EReal) (ix2 a j) := by
  unfold iblk0
  rw [View.read_apply]
  show V c main_arg4 (((cfg0.win 1).blk t).view.emb (ix2 a j)) = _
  refine congrArg (V c main_arg4) (funext fun x => Fin.ext ?_)
  obtain ⟨-, -, e0, e1, -⟩ := idx0 t
  match x with
  | ⟨0, _⟩ => show win0_1.index t (0 : Fin 2) * 128 + 1 * a.val = a.val; rw [e0]; omega
  | ⟨1, _⟩ => show win0_1.index t (1 : Fin 2) * 256 + 1 * j.val = j.val; rw [e1]; omega

/-- The first bias row's block is the whole row at every point. -/
theorem blk0_2 (c : Dev nD) (t : Fin cfg0.N) (u : Fin 1) (j : Fin 128) :
    iblk0 V c 2 t (ix2 u j) = (V c main_v40 : S1x128.Idx → EReal) (ix2 u j) := by
  unfold iblk0
  rw [View.read_apply]
  show V c main_v40 (((cfg0.win 2).blk t).view.emb (ix2 u j)) = _
  refine congrArg (V c main_v40) (funext fun x => Fin.ext ?_)
  obtain ⟨-, -, -, -, e0, e1, -⟩ := idx0 t
  match x with
  | ⟨0, _⟩ => show win0_2.index t (0 : Fin 2) * 1 + 1 * u.val = u.val; rw [e0]; omega
  | ⟨1, _⟩ => show win0_2.index t (1 : Fin 2) * 128 + 1 * j.val = j.val; rw [e1]; omega

/-- The second weight table's block is the whole table at every point. -/
theorem blk0_3 (c : Dev nD) (t : Fin cfg0.N) (a : Fin 128) (j : Fin 128) :
    iblk0 V c 3 t (ix2 a j) = (V c main_arg6 : S128x128.Idx → EReal) (ix2 a j) := by
  unfold iblk0
  rw [View.read_apply]
  show V c main_arg6 (((cfg0.win 3).blk t).view.emb (ix2 a j)) = _
  refine congrArg (V c main_arg6) (funext fun x => Fin.ext ?_)
  obtain ⟨-, -, -, -, -, -, e0, e1, -⟩ := idx0 t
  match x with
  | ⟨0, _⟩ => show win0_3.index t (0 : Fin 2) * 128 + 1 * a.val = a.val; rw [e0]; omega
  | ⟨1, _⟩ => show win0_3.index t (1 : Fin 2) * 128 + 1 * j.val = j.val; rw [e1]; omega

/-- The second bias row's block is the whole row at every point. -/
theorem blk0_4 (c : Dev nD) (t : Fin cfg0.N) (u : Fin 1) (j : Fin 128) :
    iblk0 V c 4 t (ix2 u j) = (V c main_v41 : S1x128.Idx → EReal) (ix2 u j) := by
  unfold iblk0
  rw [View.read_apply]
  show V c main_v41 (((cfg0.win 4).blk t).view.emb (ix2 u j)) = _
  refine congrArg (V c main_v41) (funext fun x => Fin.ext ?_)
  obtain ⟨-, -, -, -, -, -, -, -, e0, e1, -⟩ := idx0 t
  match x with
  | ⟨0, _⟩ => show win0_4.index t (0 : Fin 2) * 1 + 1 * u.val = u.val; rw [e0]; omega
  | ⟨1, _⟩ => show win0_4.index t (1 : Fin 2) * 128 + 1 * j.val = j.val; rw [e1]; omega

/-- What point t writes back is block t of the head applied to the whole table. -/
theorem flushed0 (c : Dev nD) (t : Fin cfg0.N) :
    (dat0 V c).flushed 5 t = ((cfg0.win 5).blk t).view.read (Elt Ideal)
      (headRows (N := 100000) (V c main_v19) (V c main_arg4) (V c main_v40) (V c main_arg6) (V c main_v41)) := by
  show (cfg0.win 5).cut (grid0.coords t) ((dat0 V c).after 5 t) = _
  rw [after0_5]
  unfold out0_5
  rw [View.canon_unit_zero hz]
  simp only [View.ld_unit_zero (S := S5000x256) hz, View.ld_unit_zero (S := S128x256) hz,
    View.ld_unit_zero (S := S1x128) hz, View.ld_unit_zero (S := S128x128) hz]
  funext y
  obtain ⟨p, q, rfl⟩ : ∃ (p : Fin 5000) (q : Fin 128), y = ix2 p q := ⟨y 0, y 1, eq_ix2 y⟩
  have hN : cfg0.N = 20 := N_0
  have ht := t.isLt
  have hp := p.isLt
  have hlt : t.val * 5000 + p.val < 100000 := by omega
  rw [View.read_apply]
  have hemb : ((cfg0.win 5).blk t).view.emb (ix2 p q) = (ix2 ⟨t.val * 5000 + p.val, hlt⟩ q : S100000x128.Idx) :=
    funext fun a => Fin.ext (by
      obtain ⟨-, -, -, -, -, -, -, -, -, -, e0, e1⟩ := idx0 t
      match a with
      | ⟨0, _⟩ => show win0_5.index t (0 : Fin 2) * 5000 + 1 * p.val = t.val * 5000 + p.val; rw [e0]; omega
      | ⟨1, _⟩ => show win0_5.index t (1 : Fin 2) * 128 + 1 * q.val = q.val; rw [e1]; omega)
  rw [hemb]
  refine (HeadBlock.pay0_apply (iblk0 V c 0 t) (iblk0 V c 1 t) (iblk0 V c 2 t) (iblk0 V c 3 t) (iblk0 V c 4 t) p q).trans ?_
  have e0 : (fun j : Fin 256 => iblk0 V c 0 t (ix2 p j)) = fun j => (V c main_v19 : S100000x256.Idx → EReal) (ix2 ⟨t.val * 5000 + p.val, hlt⟩ j) :=
    funext fun j => blk0_0 V c t p j hlt
  have e1 : (fun (a : Fin 128) (j : Fin 256) => iblk0 V c 1 t (ix2 a j)) = fun a j => (V c main_arg4 : S128x256.Idx → EReal) (ix2 a j) :=
    funext fun a => funext fun j => blk0_1 V c t a j
  have e2 : (fun j : Fin 128 => iblk0 V c 2 t (ix2 (0 : Fin 1) j)) = fun j => (V c main_v40 : S1x128.Idx → EReal) (ix2 (0 : Fin 1) j) :=
    funext fun j => blk0_2 V c t 0 j
  have e3 : (fun (a : Fin 128) (j : Fin 128) => iblk0 V c 3 t (ix2 a j)) = fun a j => (V c main_arg6 : S128x128.Idx → EReal) (ix2 a j) :=
    funext fun a => funext fun j => blk0_3 V c t a j
  have e4 : (fun j : Fin 128 => iblk0 V c 4 t (ix2 (0 : Fin 1) j)) = fun j => (V c main_v41 : S1x128.Idx → EReal) (ix2 (0 : Fin 1) j) :=
    funext fun j => blk0_4 V c t 0 j
  rw [e0, e1, e2, e3, e4]
  rfl

/-- An index of the result table is in point t's block iff its row is among rows 5000·t … 5000·t + 4999. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v42).slice (win0_5.rect t)).set ↔ _
  rw [View.set_slice_whole, Rect.mem_set_unit]
  exact Iff.rfl

/-- Every index of the result table is in the block of the point its row divided by 5000 names. -/
theorem cover0 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_5 _, ?_⟩
  rw [mem_blk0]
  obtain ⟨-, -, -, -, -, -, -, -, -, -, e0, e1⟩ := idx0 ⟨(i 0).val / 5000, by rw [hN]; omega⟩
  intro a
  match a with
  | ⟨0, _⟩ =>
    show win0_5.index _ (0 : Fin 2) * 5000 ≤ (i 0).val ∧ (i 0).val < win0_5.index _ (0 : Fin 2) * 5000 + 5000
    rw [e0]; show (i 0).val / 5000 * 5000 ≤ (i 0).val ∧ (i 0).val < (i 0).val / 5000 * 5000 + 5000; omega
  | ⟨1, _⟩ =>
    show win0_5.index _ (1 : Fin 2) * 128 ≤ (i 1).val ∧ (i 1).val < win0_5.index _ (1 : Fin 2) * 128 + 128
    rw [e1]; omega

/-- The result table after the region: the head applied to every row of the input table as the region found it. -/
theorem final0 (c : Dev nD) :
    (dat0 V c).arrAt 5 cfg0.N = headRows (N := 100000) (V c main_v19) (V c main_arg4) (V c main_v40) (V c main_arg6) (V c main_v41) :=
  (dat0 V c).arrAt_eq_of_cover 5 _ (fun t _ => flushed0 V c t) (cover0)

/-! ## Region 1: 40 points, rows `5000·t … 5000·t + 4999` of the [200000, ·] tables at point t -/

/-- The printed index maps over the grid: the row-blocked windows are at block (t, 0), the resident ones at (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The input rows' block at point t holds rows 5000·t … of the table. -/
theorem blk1_0 (c : Dev nD) (t : Fin cfg1.N) (p : Fin 5000) (j : Fin 256) (h : t.val * 5000 + p.val < 200000) :
    iblk1 V c 0 t (ix2 p j) = (V c main_v39 : S200000x256.Idx → EReal) (ix2 ⟨t.val * 5000 + p.val, h⟩ j) := by
  unfold iblk1
  rw [View.read_apply]
  show V c main_v39 (((cfg1.win 0).blk t).view.emb (ix2 p j)) = _
  refine congrArg (V c main_v39) (funext fun a => Fin.ext ?_)
  obtain ⟨e0, e1, -⟩ := idx1 t
  match a with
  | ⟨0, _⟩ => show win1_0.index t (0 : Fin 2) * 5000 + 1 * p.val = t.val * 5000 + p.val; rw [e0]; omega
  | ⟨1, _⟩ => show win1_0.index t (1 : Fin 2) * 256 + 1 * j.val = j.val; rw [e1]; omega

/-- The first weight table's block is the whole table at every point. -/
theorem blk1_1 (c : Dev nD) (t : Fin cfg1.N) (a : Fin 128) (j : Fin 256) :
    iblk1 V c 1 t (ix2 a j) = (V c main_arg8 : S128x256.Idx → EReal) (ix2 a j) := by
  unfold iblk1
  rw [View.read_apply]
  show V c main_arg8 (((cfg1.win 1).blk t).view.emb (ix2 a j)) = _
  refine congrArg (V c main_arg8) (funext fun x => Fin.ext ?_)
  obtain ⟨-, -, e0, e1, -⟩ := idx1 t
  match x with
  | ⟨0, _⟩ => show win1_1.index t (0 : Fin 2) * 128 + 1 * a.val = a.val; rw [e0]; omega
  | ⟨1, _⟩ => show win1_1.index t (1 : Fin 2) * 256 + 1 * j.val = j.val; rw [e1]; omega

/-- The first bias row's block is the whole row at every point. -/
theorem blk1_2 (c : Dev nD) (t : Fin cfg1.N) (u : Fin 1) (j : Fin 128) :
    iblk1 V c 2 t (ix2 u j) = (V c main_v43 : S1x128.Idx → EReal) (ix2 u j) := by
  unfold iblk1
  rw [View.read_apply]
  show V c main_v43 (((cfg1.win 2).blk t).view.emb (ix2 u j)) = _
  refine congrArg (V c main_v43) (funext fun x => Fin.ext ?_)
  obtain ⟨-, -, -, -, e0, e1, -⟩ := idx1 t
  match x with
  | ⟨0, _⟩ => show win1_2.index t (0 : Fin 2) * 1 + 1 * u.val = u.val; rw [e0]; omega
  | ⟨1, _⟩ => show win1_2.index t (1 : Fin 2) * 128 + 1 * j.val = j.val; rw [e1]; omega

/-- The second weight table's block is the whole table at every point. -/
theorem blk1_3 (c : Dev nD) (t : Fin cfg1.N) (a : Fin 128) (j : Fin 128) :
    iblk1 V c 3 t (ix2 a j) = (V c main_arg10 : S128x128.Idx → EReal) (ix2 a j) := by
  unfold iblk1
  rw [View.read_apply]
  show V c main_arg10 (((cfg1.win 3).blk t).view.emb (ix2 a j)) = _
  refine congrArg (V c main_arg10) (funext fun x => Fin.ext ?_)
  obtain ⟨-, -, -, -, -, -, e0, e1, -⟩ := idx1 t
  match x with
  | ⟨0, _⟩ => show win1_3.index t (0 : Fin 2) * 128 + 1 * a.val = a.val; rw [e0]; omega
  | ⟨1, _⟩ => show win1_3.index t (1 : Fin 2) * 128 + 1 * j.val = j.val; rw [e1]; omega

/-- The second bias row's block is the whole row at every point. -/
theorem blk1_4 (c : Dev nD) (t : Fin cfg1.N) (u : Fin 1) (j : Fin 128) :
    iblk1 V c 4 t (ix2 u j) = (V c main_v44 : S1x128.Idx → EReal) (ix2 u j) := by
  unfold iblk1
  rw [View.read_apply]
  show V c main_v44 (((cfg1.win 4).blk t).view.emb (ix2 u j)) = _
  refine congrArg (V c main_v44) (funext fun x => Fin.ext ?_)
  obtain ⟨-, -, -, -, -, -, -, -, e0, e1, -⟩ := idx1 t
  match x with
  | ⟨0, _⟩ => show win1_4.index t (0 : Fin 2) * 1 + 1 * u.val = u.val; rw [e0]; omega
  | ⟨1, _⟩ => show win1_4.index t (1 : Fin 2) * 128 + 1 * j.val = j.val; rw [e1]; omega

/-- What point t writes back is block t of the head applied to the whole table. -/
theorem flushed1 (c : Dev nD) (t : Fin cfg1.N) :
    (dat1 V c).flushed 5 t = ((cfg1.win 5).blk t).view.read (Elt Ideal)
      (headRows (N := 200000) (V c main_v39) (V c main_arg8) (V c main_v43) (V c main_arg10) (V c main_v44)) := by
  show (cfg1.win 5).cut (grid1.coords t) ((dat1 V c).after 5 t) = _
  rw [after1_5]
  unfold out1_5
  rw [View.canon_unit_zero hz]
  simp only [View.ld_unit_zero (S := S5000x256) hz, View.ld_unit_zero (S := S128x256) hz,
    View.ld_unit_zero (S := S1x128) hz, View.ld_unit_zero (S := S128x128) hz]
  funext y
  obtain ⟨p, q, rfl⟩ : ∃ (p : Fin 5000) (q : Fin 128), y = ix2 p q := ⟨y 0, y 1, eq_ix2 y⟩
  have hN : cfg1.N = 40 := N_1
  have ht := t.isLt
  have hp := p.isLt
  have hlt : t.val * 5000 + p.val < 200000 := by omega
  rw [View.read_apply]
  have hemb : ((cfg1.win 5).blk t).view.emb (ix2 p q) = (ix2 ⟨t.val * 5000 + p.val, hlt⟩ q : S200000x128.Idx) :=
    funext fun a => Fin.ext (by
      obtain ⟨-, -, -, -, -, -, -, -, -, -, e0, e1⟩ := idx1 t
      match a with
      | ⟨0, _⟩ => show win1_5.index t (0 : Fin 2) * 5000 + 1 * p.val = t.val * 5000 + p.val; rw [e0]; omega
      | ⟨1, _⟩ => show win1_5.index t (1 : Fin 2) * 128 + 1 * q.val = q.val; rw [e1]; omega)
  rw [hemb]
  refine (HeadBlock.pay1_apply (iblk1 V c 0 t) (iblk1 V c 1 t) (iblk1 V c 2 t) (iblk1 V c 3 t) (iblk1 V c 4 t) p q).trans ?_
  have e0 : (fun j : Fin 256 => iblk1 V c 0 t (ix2 p j)) = fun j => (V c main_v39 : S200000x256.Idx → EReal) (ix2 ⟨t.val * 5000 + p.val, hlt⟩ j) :=
    funext fun j => blk1_0 V c t p j hlt
  have e1 : (fun (a : Fin 128) (j : Fin 256) => iblk1 V c 1 t (ix2 a j)) = fun a j => (V c main_arg8 : S128x256.Idx → EReal) (ix2 a j) :=
    funext fun a => funext fun j => blk1_1 V c t a j
  have e2 : (fun j : Fin 128 => iblk1 V c 2 t (ix2 (0 : Fin 1) j)) = fun j => (V c main_v43 : S1x128.Idx → EReal) (ix2 (0 : Fin 1) j) :=
    funext fun j => blk1_2 V c t 0 j
  have e3 : (fun (a : Fin 128) (j : Fin 128) => iblk1 V c 3 t (ix2 a j)) = fun a j => (V c main_arg10 : S128x128.Idx → EReal) (ix2 a j) :=
    funext fun a => funext fun j => blk1_3 V c t a j
  have e4 : (fun j : Fin 128 => iblk1 V c 4 t (ix2 (0 : Fin 1) j)) = fun j => (V c main_v44 : S1x128.Idx → EReal) (ix2 (0 : Fin 1) j) :=
    funext fun j => blk1_4 V c t 0 j
  rw [e0, e1, e2, e3, e4]
  rfl

/-- An index of the result table is in point t's block iff its row is among rows 5000·t … 5000·t + 4999. -/
theorem mem_blk1 (t : Fin cfg1.N) (i : S200000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v45).slice (win1_5.rect t)).set ↔ _
  rw [View.set_slice_whole, Rect.mem_set_unit]
  exact Iff.rfl

/-- Every index of the result table is in the block of the point its row divided by 5000 names. -/
theorem cover1 (i : S200000x128.Idx) : ∃ t : Fin cfg1.N, (cfg1.win 5).flush t = true ∧ i ∈ ((cfg1.win 5).blk t).view.set := by
  have hi0 : (i 0).val < 200000 := (i 0).isLt
  have hi1 : (i 1).val < 128 := (i 1).isLt
  have hN : cfg1.N = 40 := N_1
  refine ⟨⟨(i 0).val / 5000, by rw [hN]; omega⟩, flush1_5 _, ?_⟩
  rw [mem_blk1]
  obtain ⟨-, -, -, -, -, -, -, -, -, -, e0, e1⟩ := idx1 ⟨(i 0).val / 5000, by rw [hN]; omega⟩
  intro a
  match a with
  | ⟨0, _⟩ =>
    show win1_5.index _ (0 : Fin 2) * 5000 ≤ (i 0).val ∧ (i 0).val < win1_5.index _ (0 : Fin 2) * 5000 + 5000
    rw [e0]; show (i 0).val / 5000 * 5000 ≤ (i 0).val ∧ (i 0).val < (i 0).val / 5000 * 5000 + 5000; omega
  | ⟨1, _⟩ =>
    show win1_5.index _ (1 : Fin 2) * 128 ≤ (i 1).val ∧ (i 1).val < win1_5.index _ (1 : Fin 2) * 128 + 128
    rw [e1]; omega

/-- The result table after the region: the head applied to every row of the input table as the region found it. -/
theorem final1 (c : Dev nD) :
    (dat1 V c).arrAt 5 cfg1.N = headRows (N := 200000) (V c main_v39) (V c main_arg8) (V c main_v43) (V c main_arg10) (V c main_v44) :=
  (dat1 V c).arrAt_eq_of_cover 5 _ (fun t _ => flushed1 V c t) (cover1)

end Cert.KernelIdeal.KerBlocks

end
-- ==== Proof.Fusion.lean ====
/-
  The feature tables the two heads read, as functions of the four graph inputs.

  Both programs build, before anything else, two tables by the same operations. For the vertices: every edge gathers the
  face row its column position names (a negative position counts from the end), the gathered rows are added up per
  vertex (the edge's row position names the vertex), each vertex's sum is divided by the number of its edges, at least
  one, and the result is put to the right of the vertex's own row: a [100000, 256] table. For the faces the same with the
  two roles exchanged: a [200000, 256] table. They are named here once so that neither side of the comparison has to look
  inside them.
-/
import proofs.«161651_j40544491274781_1_alg».proof.KernelIdeal

noncomputable section

namespace Cert.KernelIdeal.Fused

open Cert.KernelIdeal Idealize.ShloMosaic

variable {F : FTy → Type} [FloatOps F] [Facts]
open Facts₀ Facts

/-- The vertices' table: each vertex's own row, then the mean of the face rows its edges name. -/
def fusedV (xv : (⟨S100000x128, .f32⟩ : BufTy).Contents (Elt F)) (xf : (⟨S200000x128, .f32⟩ : BufTy).Contents (Elt F))
    (er ec : (⟨S600000, .i32⟩ : BufTy).Contents (Elt F)) : (⟨S100000x256, .f32⟩ : BufTy).Contents (Elt F) :=
  concatenate S100000x256 1
    [⟨S100000x128, xv⟩,
      ⟨S100000x128,
        Host.divf
          (Host.scatterAdd scatter_S100000x128_S600000x1_S600000x128_1_0_0_1
            (broadcastInDim S100000x128 ![] bcast_S_S100000x128 (constant S_ .f32 0x00000000#32))
            (broadcastInDim S600000x1 ![0] bcast_S600000_S600000x1_0 er)
            (Host.gather gather_S200000x128_S600000x1_S600000x128_1_0_n_n_0_1_1128 xf
              (broadcastInDim S600000x1 ![0] bcast_S600000_S600000x1_0
                (select
                  (cmpi .slt ec (broadcastInDim S600000 ![] bcast_S_S600000 (constantI S_ 32 0#32)))
                  (addi ec (broadcastInDim S600000 ![] bcast_S_S600000 (constantI S_ 32 200000#32)))
                  ec))))
          (broadcastInDim S100000x128 ![0, 1] bcast_S100000x1_S100000x128_0_1
            (broadcastInDim S100000x1 ![0] bcast_S100000_S100000x1_0
              (maximumf
                (Host.scatterAdd scatter_S100000_S600000x1_S600000_n_0_0_1
                  (broadcastInDim S100000 ![] bcast_S_S100000 (constant S_ .f32 0x00000000#32))
                  (broadcastInDim S600000x1 ![0] bcast_S600000_S600000x1_0 er)
                  (broadcastInDim S600000 ![] bcast_S_S600000 (constant S_ .f32 0x3F800000#32)))
                (broadcastInDim S100000 ![] bcast_S_S100000 (constant S_ .f32 0x3F800000#32)))))⟩]
    concatenates_S100000x128_S100000x128_S100000x256_d1

/-- The faces' table: each face's own row, then the mean of the vertex rows its edges name. -/
def fusedF (xv : (⟨S100000x128, .f32⟩ : BufTy).Contents (Elt F)) (xf : (⟨S200000x128, .f32⟩ : BufTy).Contents (Elt F))
    (er ec : (⟨S600000, .i32⟩ : BufTy).Contents (Elt F)) : (⟨S200000x256, .f32⟩ : BufTy).Contents (Elt F) :=
  concatenate S200000x256 1
    [⟨S200000x128, xf⟩,
      ⟨S200000x128,
        Host.divf
          (Host.scatterAdd scatter_S200000x128_S600000x1_S600000x128_1_0_0_1
            (broadcastInDim S200000x128 ![] bcast_S_S200000x128 (constant S_ .f32 0x00000000#32))
            (broadcastInDim S600000x1 ![0] bcast_S600000_S600000x1_0 ec)
            (Host.gather gather_S100000x128_S600000x1_S600000x128_1_0_n_n_0_1_1128 xv
              (broadcastInDim S600000x1 ![0] bcast_S600000_S600000x1_0
                (select
                  (cmpi .slt er (broadcastInDim S600000 ![] bcast_S_S600000 (constantI S_ 32 0#32)))
                  (addi er (broadcastInDim S600000 ![] bcast_S_S600000 (constantI S_ 32 100000#32)))
                  er))))
          (broadcastInDim S200000x128 ![0, 1] bcast_S200000x1_S200000x128_0_1
            (broadcastInDim S200000x1 ![0] bcast_S200000_S200000x1_0
              (maximumf
                (Host.scatterAdd scatter_S200000_S600000x1_S600000_n_0_0_1
                  (broadcastInDim S200000 ![] bcast_S_S200000 (constant S_ .f32 0x00000000#32))
                  (broadcastInDim S600000x1 ![0] bcast_S600000_S600000x1_0 ec)
                  (broadcastInDim S600000 ![] bcast_S_S600000 (constant S_ .f32 0x3F800000#32)))
                (broadcastInDim S200000 ![] bcast_S_S200000 (constant S_ .f32 0x3F800000#32)))))⟩]
    concatenates_S200000x128_S200000x128_S200000x256_d1

end Cert.KernelIdeal.Fused

end
-- ==== Proof.KerHost.lean ====
/-
  What each region finds in its input buffers.

  Before the first region the host builds the vertices' table and the faces' table and reshapes the first head's two
  bias vectors to rows; between the regions it reshapes the second head's. No host operation and no region writes an
  argument array or a table once it is built, so each region's input buffers, read back through the operations before
  it, are the tables and the launch contents of the weights and biases.
-/
import proofs.«161651_j40544491274781_1_alg».proof.Proof.KerRun
import proofs.«161651_j40544491274781_1_alg».proof.Proof.Fusion
import Idealize.ShloMosaic.Lib.StableHlo.Run
import Idealize.ShloMosaic.PureOps.Ideal

noncomputable section

open Idealize.ShloMosaic Idealize.ShloMosaic.TcCoe Idealize.SL.Sem Idealize.ShloMosaic.StableHlo

namespace Cert.KernelIdeal.KerHost

open Cert.KernelIdeal Cert.KernelIdeal.Gen Cert.KernelIdeal.Fused
open Facts₀ Facts

variable (m : (ℓ : Loc nD τ sig) → Buf (Elt Ideal) ℓ) (ρ : Dev nD → PrngReg)

/-! ## What the first region finds -/

set_option maxHeartbeats 4000000 in
theorem entry0_table (c : Dev nD) :
    V1 m ρ c main_v19 = fusedV (m ((c.tc : Thread nD τ).loc main_arg0)) (m ((c.tc : Thread nD τ).loc main_arg1)) (m ((c.tc : Thread nD τ).loc main_arg2)) (m ((c.tc : Thread nD τ).loc main_arg3)) := by
  show StableHlo.after hostOps0 (W0 m ρ c) (Proc.devRef .tc main_v19) = _
  after_results
  all_goals rfl

theorem entry0_w1 (c : Dev nD) : V1 m ρ c main_arg4 = m ((c.tc : Thread nD τ).loc main_arg4) := by
  show StableHlo.after hostOps0 (W0 m ρ c) (Proc.devRef .tc main_arg4) = _
  after_results
  all_goals rfl

theorem entry0_w2 (c : Dev nD) : V1 m ρ c main_arg6 = m ((c.tc : Thread nD τ).loc main_arg6) := by
  show StableHlo.after hostOps0 (W0 m ρ c) (Proc.devRef .tc main_arg6) = _
  after_results
  all_goals rfl

theorem entry0_r1 (c : Dev nD) : V1 m ρ c main_v40 = shapeCast S1x128 (m ((c.tc : Thread nD τ).loc main_arg5)) Facts₀.shapeCasts_S128_S1x128 := by
  show StableHlo.after hostOps0 (W0 m ρ c) (Proc.devRef .tc main_v40) = _
  after_results
  all_goals rfl

theorem entry0_r2 (c : Dev nD) : V1 m ρ c main_v41 = shapeCast S1x128 (m ((c.tc : Thread nD τ).loc main_arg7)) Facts₀.shapeCasts_S128_S1x128 := by
  show StableHlo.after hostOps0 (W0 m ρ c) (Proc.devRef .tc main_v41) = _
  after_results
  all_goals rfl

/-! ## What the second region finds -/

set_option maxHeartbeats 4000000 in
theorem entry1_table (c : Dev nD) :
    V3 m ρ c main_v39 = fusedF (m ((c.tc : Thread nD τ).loc main_arg0)) (m ((c.tc : Thread nD τ).loc main_arg1)) (m ((c.tc : Thread nD τ).loc main_arg2)) (m ((c.tc : Thread nD τ).loc main_arg3)) := by
  show StableHlo.after hostOps1 (W2 m ρ c) (Proc.devRef .tc main_v39) = _
  after_results
  rw [W2_of_ne m ρ c main_v39 (by decide)]
  show StableHlo.after hostOps0 (W0 m ρ c) (Proc.devRef .tc main_v39) = _
  after_results
  all_goals rfl

theorem entry1_w1 (c : Dev nD) : V3 m ρ c main_arg8 = m ((c.tc : Thread nD τ).loc main_arg8) := by
  show StableHlo.after hostOps1 (W2 m ρ c) (Proc.devRef .tc main_arg8) = _
  after_results
  rw [W2_of_ne m ρ c main_arg8 (by decide)]
  show StableHlo.after hostOps0 (W0 m ρ c) (Proc.devRef .tc main_arg8) = _
  after_results
  all_goals rfl

theorem entry1_w2 (c : Dev nD) : V3 m ρ c main_arg10 = m ((c.tc : Thread nD τ).loc main_arg10) := by
  show StableHlo.after hostOps1 (W2 m ρ c) (Proc.devRef .tc main_arg10) = _
  after_results
  rw [W2_of_ne m ρ c main_arg10 (by decide)]
  show StableHlo.after hostOps0 (W0 m ρ c) (Proc.devRef .tc main_arg10) = _
  after_results
  all_goals rfl

theorem mid_b1 (c : Dev nD) : W2 m ρ c (Proc.devRef .tc main_arg9) = m ((c.tc : Thread nD τ).loc main_arg9) := by
  rw [W2_of_ne m ρ c main_arg9 (by decide)]
  show StableHlo.after hostOps0 (W0 m ρ c) (Proc.devRef .tc main_arg9) = _
  after_results
  all_goals rfl

theorem mid_b2 (c : Dev nD) : W2 m ρ c (Proc.devRef .tc main_arg11) = m ((c.tc : Thread nD τ).loc main_arg11) := by
  rw [W2_of_ne m ρ c main_arg11 (by decide)]
  show StableHlo.after hostOps0 (W0 m ρ c) (Proc.devRef .tc main_arg11) = _
  after_results
  all_goals rfl

theorem entry1_r1 (c : Dev nD) : V3 m ρ c main_v43 = shapeCast S1x128 (m ((c.tc : Thread nD τ).loc main_arg9)) Facts₀.shapeCasts_S128_S1x128 := by
  show StableHlo.after hostOps1 (W2 m ρ c) (Proc.devRef .tc main_v43) = _
  after_results
  rw [mid_b1 m ρ c]
  rfl

theorem entry1_r2 (c : Dev nD) : V3 m ρ c main_v44 = shapeCast S1x128 (m ((c.tc : Thread nD τ).loc main_arg11)) Facts₀.shapeCasts_S128_S1x128 := by
  show StableHlo.after hostOps1 (W2 m ρ c) (Proc.devRef .tc main_v44) = _
  after_results
  rw [mid_b2 m ρ c]
  rfl

end Cert.KernelIdeal.KerHost

end
-- ==== Proof.KerSide.lean ====
/-
  The kernel program's two results as functions of its arguments.

  The first region finds the vertices' table, the first head's weights and bias rows as launched, and leaves the head
  applied to the vertices' table; nothing after it writes that result. The second region likewise for the faces. Read in
  the final state, the two results are the two heads of the two tables.
-/
import proofs.«161651_j40544491274781_1_alg».proof.Proof.KerRun
import proofs.«161651_j40544491274781_1_alg».proof.Proof.KerBlocks
import proofs.«161651_j40544491274781_1_alg».proof.Proof.KerHost

noncomputable section

open Idealize.ShloMosaic Idealize.ShloMosaic.TcCoe Idealize.SL.Sem Idealize.ShloMosaic.StableHlo

namespace Cert.KernelIdeal.KerHost

open Cert.KernelIdeal Cert.KernelIdeal.Gen Cert.KernelIdeal.Fused Cert.KernelIdeal.HeadBlock Cert.HeadSpec
open Facts₀ Facts

variable (m : (ℓ : Loc nD τ sig) → Buf (Elt Ideal) ℓ) (ρ : Dev nD → PrngReg)

/-! ## The two results in the final state -/

/-- The first result: no later operation writes it, so it ends as the first region left it. -/
theorem result0 (c : Dev nD) :
    W4 m ρ c (Proc.devRef .tc main_v42)
      = headTable (N := 100000) (fusedV (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5)) (m ((c.tc : Thread nD τ).loc main_arg6)) (m ((c.tc : Thread nD τ).loc main_arg7)) := by
  rw [W4_of_ne m ρ c main_v42 (by decide)]
  have h1 : W3 m ρ c (Proc.devRef .tc main_v42) = W2 m ρ c (Proc.devRef .tc main_v42) := by
    show StableHlo.after hostOps1 (W2 m ρ c) (Proc.devRef .tc main_v42) = _
    after_results
  rw [h1]
  refine (W2_arr m ρ c 5).trans ?_
  rw [KerBlocks.final0 (V1 m ρ) c, entry0_table m ρ c, entry0_w1 m ρ c, entry0_w2 m ρ c, entry0_r1 m ρ c, entry0_r2 m ρ c]
  exact headRows_reshaped _ _ _ _ _ _

/-- The second result: what the second region left. -/
theorem result1 (c : Dev nD) :
    W4 m ρ c (Proc.devRef .tc main_v45)
      = headTable (N := 200000) (fusedF (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg8)) (m ((c.tc : Thread nD τ).loc main_arg9)) (m ((c.tc : Thread nD τ).loc main_arg10)) (m ((c.tc : Thread nD τ).loc main_arg11)) := by
  refine (W4_arr m ρ c 5).trans ?_
  rw [KerBlocks.final1 (V3 m ρ) c, entry1_table m ρ c, entry1_w1 m ρ c, entry1_w2 m ρ c, entry1_r1 m ρ c, entry1_r2 m ρ c]
  exact headRows_reshaped _ _ _ _ _ _

end Cert.KernelIdeal.KerHost

namespace Cert.KerSide

open Cert.KernelIdeal Cert.HeadSpec Cert.KernelIdeal.Fused

/-- Every weakly fair execution of the kernel program terminates with its two results the two heads of the two feature
    tables, and its arguments unchanged. -/
theorem run (m : (ℓ : Loc nD τ sig) → Buf (Elt Ideal) ℓ) (ρ : Dev nD → PrngReg) :
    θ_run (Cert.KernelIdeal.defs (F := Ideal)) (onTc (τ := Cert.KernelIdeal.τ) (Cert.KernelIdeal.main (F := Ideal)))
      ⟨m, fun _ => 0, ρ⟩ (fun r => ∀ c : Dev Cert.KernelIdeal.nD,
      r.2.mem ((c.tc : Thread Cert.KernelIdeal.nD Cert.KernelIdeal.τ).loc Cert.KernelIdeal.main_v42)
        = headTable (N := 100000) (fusedV (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      ∧ r.2.mem ((c.tc : Thread Cert.KernelIdeal.nD Cert.KernelIdeal.τ).loc Cert.KernelIdeal.main_v45)
        = headTable (N := 200000) (fusedF (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)) :=
  (θ_run (Cert.KernelIdeal.defs (F := Ideal)) _ _).mono
    (fun r h c => ⟨(h c).1.trans (Cert.KernelIdeal.KerHost.result0 m ρ c),
      (h c).2.1.trans (Cert.KernelIdeal.KerHost.result1 m ρ c), (h c).2.2⟩)
    (Cert.KernelIdeal.KerRun.run_fold (F := Ideal) m ρ)

end Cert.KerSide

end
-- ==== Proof.RefOps.lean ====
/-
  The reference program's operations, in order, as four lists.

  The program builds the two feature tables (52 operations), then the vertices' head — its first layer (13 operations:
  the first weight table transposed, the matrix product, the bias row added, the leaky rectifier) with the second weight
  table's transposition (1 operation), and its second layer (12 operations) — and the faces' head (26 operations of the
  same form). The leaky rectifier and the selection inside it are functions of the module; here their operations stand
  in line at each of the four places they are called from, over that call's own buffers, each at its buffer's own type. Every operation touches buffers
  of the device only, determines its result, and writes one buffer; the buffers each list writes are listed beside it.
-/
import proofs.«161651_j40544491274781_1_alg».proof.ReferenceIdeal
import Idealize.ShloMosaic.Lib.StableHlo.Run

noncomputable section

namespace Cert.RefSide

open Cert.ReferenceIdeal Idealize.ShloMosaic Idealize.ShloMosaic.TcCoe Idealize.SL.Sem Idealize.ShloMosaic.StableHlo

variable {F : FTy → Type} [FloatOps F] [Cert.ReferenceIdeal.Facts]
open Cert.ReferenceIdeal.Facts₀ Cert.ReferenceIdeal.Facts

/-- The 52 operations that build the two feature tables. -/
abbrev opsF : List (HloOp τ sig (Elt F)) :=
  [ StableHlo.nullary main_c (constantI S_ 32 0#32),
    StableHlo.unary main_c main_v0 (broadcastInDim S600000 ![] bcast_S_S600000 : (⟨S_, .i32⟩ : BufTy).Contents (Elt F) → (⟨S600000, .i32⟩ : BufTy).Contents (Elt F)),
    StableHlo.binary main_arg3 main_v0 main_v1 (cmpi .slt : (⟨S600000, .i32⟩ : BufTy).Contents (Elt F) → (⟨S600000, .i32⟩ : BufTy).Contents (Elt F) → (⟨S600000, .i1⟩ : BufTy).Contents (Elt F)),
    StableHlo.nullary main_c_0 (constantI S_ 32 200000#32),
    StableHlo.unary main_c_0 main_v2 (broadcastInDim S600000 ![] bcast_S_S600000 : (⟨S_, .i32⟩ : BufTy).Contents (Elt F) → (⟨S600000, .i32⟩ : BufTy).Contents (Elt F)),
    StableHlo.binary main_arg3 main_v2 main_v3 (addi : (⟨S600000, .i32⟩ : BufTy).Contents (Elt F) → (⟨S600000, .i32⟩ : BufTy).Contents (Elt F) → (⟨S600000, .i32⟩ : BufTy).Contents (Elt F)),
    StableHlo.ternary main_v1 main_v3 main_arg3 main_v4 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v4 main_v5 (broadcastInDim S600000x1 ![0] bcast_S600000_S600000x1_0 : (⟨S600000, .i32⟩ : BufTy).Contents (Elt F) → (⟨S600000x1, .i32⟩ : BufTy).Contents (Elt F)),
    StableHlo.binary main_arg1 main_v5 main_v6 ((fun x i => Host.gather gather_S200000x128_S600000x1_S600000x128_1_0_n_n_0_1_1128 x i) : (⟨S200000x128, .f32⟩ : BufTy).Contents (Elt F) → (⟨S600000x1, .i32⟩ : BufTy).Contents (Elt F) → (⟨S600000x128, .f32⟩ : BufTy).Contents (Elt F)),
    StableHlo.nullary main_cst (constant S_ .f32 0x00000000#32),
    StableHlo.unary main_cst main_v7 (broadcastInDim S100000x128 ![] bcast_S_S100000x128 : (⟨S_, .f32⟩ : BufTy).Contents (Elt F) → (⟨S100000x128, .f32⟩ : BufTy).Contents (Elt F)),
    StableHlo.unary main_arg2 main_v8 (broadcastInDim S600000x1 ![0] bcast_S600000_S600000x1_0 : (⟨S600000, .i32⟩ : BufTy).Contents (Elt F) → (⟨S600000x1, .i32⟩ : BufTy).Contents (Elt F)),
    StableHlo.ternary main_v7 main_v8 main_v6 main_v9 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.nullary main_cst_1 (constant S_ .f32 0x3F800000#32),
    StableHlo.unary main_cst_1 main_v10 (broadcastInDim S600000 ![] bcast_S_S600000 : (⟨S_, .f32⟩ : BufTy).Contents (Elt F) → (⟨S600000, .f32⟩ : BufTy).Contents (Elt F)),
    StableHlo.nullary main_cst_2 (constant S_ .f32 0x00000000#32),
    StableHlo.unary main_cst_2 main_v11 (broadcastInDim S100000 ![] bcast_S_S100000 : (⟨S_, .f32⟩ : BufTy).Contents (Elt F) → (⟨S100000, .f32⟩ : BufTy).Contents (Elt F)),
    StableHlo.unary main_arg2 main_v12 (broadcastInDim S600000x1 ![0] bcast_S600000_S600000x1_0 : (⟨S600000, .i32⟩ : BufTy).Contents (Elt F) → (⟨S600000x1, .i32⟩ : BufTy).Contents (Elt F)),
    StableHlo.ternary main_v11 main_v12 main_v10 main_v13 ((fun x i u => Host.scatterAdd scatter_S100000_S600000x1_S600000_n_0_0_1 x i u) : (⟨S100000, .f32⟩ : BufTy).Contents (Elt F) → (⟨S600000x1, .i32⟩ : BufTy).Contents (Elt F) → (⟨S600000, .f32⟩ : BufTy).Contents (Elt F) → (⟨S100000, .f32⟩ : BufTy).Contents (Elt F)),
    StableHlo.nullary main_cst_3 (constant S_ .f32 0x3F800000#32),
    StableHlo.unary main_cst_3 main_v14 (broadcastInDim S100000 ![] bcast_S_S100000 : (⟨S_, .f32⟩ : BufTy).Contents (Elt F) → (⟨S100000, .f32⟩ : BufTy).Contents (Elt F)),
    StableHlo.binary main_v13 main_v14 main_v15 (maximumf : (⟨S100000, .f32⟩ : BufTy).Contents (Elt F) → (⟨S100000, .f32⟩ : BufTy).Contents (Elt F) → (⟨S100000, .f32⟩ : BufTy).Contents (Elt F)),
    StableHlo.unary main_v15 main_v16 (broadcastInDim S100000x1 ![0] bcast_S100000_S100000x1_0 : (⟨S100000, .f32⟩ : BufTy).Contents (Elt F) → (⟨S100000x1, .f32⟩ : BufTy).Contents (Elt F)),
    StableHlo.unary main_v16 main_v17 (broadcastInDim S100000x128 ![0, 1] bcast_S100000x1_S100000x128_0_1 : (⟨S100000x1, .f32⟩ : BufTy).Contents (Elt F) → (⟨S100000x128, .f32⟩ : BufTy).Contents (Elt F)),
    StableHlo.binary main_v9 main_v17 main_v18 (Host.divf : (⟨S100000x128, .f32⟩ : BufTy).Contents (Elt F) → (⟨S100000x128, .f32⟩ : BufTy).Contents (Elt F) → (⟨S100000x128, .f32⟩ : BufTy).Contents (Elt F)),
    StableHlo.binary main_arg0 main_v18 main_v19 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    StableHlo.nullary main_c_4 (constantI S_ 32 0#32),
    StableHlo.unary main_c_4 main_v20 (broadcastInDim S600000 ![] bcast_S_S600000 : (⟨S_, .i32⟩ : BufTy).Contents (Elt F) → (⟨S600000, .i32⟩ : BufTy).Contents (Elt F)),
    StableHlo.binary main_arg2 main_v20 main_v21 (cmpi .slt : (⟨S600000, .i32⟩ : BufTy).Contents (Elt F) → (⟨S600000, .i32⟩ : BufTy).Contents (Elt F) → (⟨S600000, .i1⟩ : BufTy).Contents (Elt F)),
    StableHlo.nullary main_c_5 (constantI S_ 32 100000#32),
    StableHlo.unary main_c_5 main_v22 (broadcastInDim S600000 ![] bcast_S_S600000 : (⟨S_, .i32⟩ : BufTy).Contents (Elt F) → (⟨S600000, .i32⟩ : BufTy).Contents (Elt F)),
    StableHlo.binary main_arg2 main_v22 main_v23 (addi : (⟨S600000, .i32⟩ : BufTy).Contents (Elt F) → (⟨S600000, .i32⟩ : BufTy).Contents (Elt F) → (⟨S600000, .i32⟩ : BufTy).Contents (Elt F)),
    StableHlo.ternary main_v21 main_v23 main_arg2 main_v24 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v24 main_v25 (broadcastInDim S600000x1 ![0] bcast_S600000_S600000x1_0 : (⟨S600000, .i32⟩ : BufTy).Contents (Elt F) → (⟨S600000x1, .i32⟩ : BufTy).Contents (Elt F)),
    StableHlo.binary main_arg0 main_v25 main_v26 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.nullary main_cst_6 (constant S_ .f32 0x00000000#32),
    StableHlo.unary main_cst_6 main_v27 (broadcastInDim S200000x128 ![] bcast_S_S200000x128 : (⟨S_, .f32⟩ : BufTy).Contents (Elt F) → (⟨S200000x128, .f32⟩ : BufTy).Contents (Elt F)),
    StableHlo.unary main_arg3 main_v28 (broadcastInDim S600000x1 ![0] bcast_S600000_S600000x1_0 : (⟨S600000, .i32⟩ : BufTy).Contents (Elt F) → (⟨S600000x1, .i32⟩ : BufTy).Contents (Elt F)),
    StableHlo.ternary main_v27 main_v28 main_v26 main_v29 ((fun x i u => Host.scatterAdd scatter_S200000x128_S600000x1_S600000x128_1_0_0_1 x i u) : (⟨S200000x128, .f32⟩ : BufTy).Contents (Elt F) → (⟨S600000x1, .i32⟩ : BufTy).Contents (Elt F) → (⟨S600000x128, .f32⟩ : BufTy).Contents (Elt F) → (⟨S200000x128, .f32⟩ : BufTy).Contents (Elt F)),
    StableHlo.nullary main_cst_7 (constant S_ .f32 0x3F800000#32),
    StableHlo.unary main_cst_7 main_v30 (broadcastInDim S600000 ![] bcast_S_S600000 : (⟨S_, .f32⟩ : BufTy).Contents (Elt F) → (⟨S600000, .f32⟩ : BufTy).Contents (Elt F)),
    StableHlo.nullary main_cst_8 (constant S_ .f32 0x00000000#32),
    StableHlo.unary main_cst_8 main_v31 (broadcastInDim S200000 ![] bcast_S_S200000 : (⟨S_, .f32⟩ : BufTy).Contents (Elt F) → (⟨S200000, .f32⟩ : BufTy).Contents (Elt F)),
    StableHlo.unary main_arg3 main_v32 (broadcastInDim S600000x1 ![0] bcast_S600000_S600000x1_0 : (⟨S600000, .i32⟩ : BufTy).Contents (Elt F) → (⟨S600000x1, .i32⟩ : BufTy).Contents (Elt F)),
    StableHlo.ternary main_v31 main_v32 main_v30 main_v33 ((fun x i u => Host.scatterAdd scatter_S200000_S600000x1_S600000_n_0_0_1 x i u) : (⟨S200000, .f32⟩ : BufTy).Contents (Elt F) → (⟨S600000x1, .i32⟩ : BufTy).Contents (Elt F) → (⟨S600000, .f32⟩ : BufTy).Contents (Elt F) → (⟨S200000, .f32⟩ : BufTy).Contents (Elt F)),
    StableHlo.nullary main_cst_9 (constant S_ .f32 0x3F800000#32),
    StableHlo.unary main_cst_9 main_v34 (broadcastInDim S200000 ![] bcast_S_S200000 : (⟨S_, .f32⟩ : BufTy).Contents (Elt F) → (⟨S200000, .f32⟩ : BufTy).Contents (Elt F)),
    StableHlo.binary main_v33 main_v34 main_v35 (maximumf : (⟨S200000, .f32⟩ : BufTy).Contents (Elt F) → (⟨S200000, .f32⟩ : BufTy).Contents (Elt F) → (⟨S200000, .f32⟩ : BufTy).Contents (Elt F)),
    StableHlo.unary main_v35 main_v36 (broadcastInDim S200000x1 ![0] bcast_S200000_S200000x1_0 : (⟨S200000, .f32⟩ : BufTy).Contents (Elt F) → (⟨S200000x1, .f32⟩ : BufTy).Contents (Elt F)),
    StableHlo.unary main_v36 main_v37 (broadcastInDim S200000x128 ![0, 1] bcast_S200000x1_S200000x128_0_1 : (⟨S200000x1, .f32⟩ : BufTy).Contents (Elt F) → (⟨S200000x128, .f32⟩ : BufTy).Contents (Elt F)),
    StableHlo.binary main_v29 main_v37 main_v38 (Host.divf : (⟨S200000x128, .f32⟩ : BufTy).Contents (Elt F) → (⟨S200000x128, .f32⟩ : BufTy).Contents (Elt F) → (⟨S200000x128, .f32⟩ : BufTy).Contents (Elt F)),
    StableHlo.binary main_arg1 main_v38 main_v39 ((fun a b => concatenate S200000x256 1 [⟨S200000x128, a⟩, ⟨S200000x128, b⟩] concatenates_S200000x128_S200000x128_S200000x256_d1) : (⟨S200000x128, .f32⟩ : BufTy).Contents (Elt F) → (⟨S200000x128, .f32⟩ : BufTy).Contents (Elt F) → (⟨S200000x256, .f32⟩ : BufTy).Contents (Elt F)) ]

/-- The 14 operations of the first layer of the vertices' head, the second weight table's transposition last. -/
abbrev opsV1 : List (HloOp τ sig (Elt F)) :=
  [ StableHlo.unary main_arg4 main_v40 ((transpose S256x128 [1, 0] · transposes_S128x256_S256x128_1_0) : (⟨S128x256, .f32⟩ : BufTy).Contents (Elt F) → (⟨S256x128, .f32⟩ : BufTy).Contents (Elt F)),
    StableHlo.binary main_v19 main_v40 main_v41 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    StableHlo.unary main_arg5 main_v42 (broadcastInDim S1x128 ![1] bcast_S128_S1x128_1 : (⟨S128, .f32⟩ : BufTy).Contents (Elt F) → (⟨S1x128, .f32⟩ : BufTy).Contents (Elt F)),
    StableHlo.unary main_v42 main_v43 (broadcastInDim S100000x128 ![0, 1] bcast_S1x128_S100000x128_0_1 : (⟨S1x128, .f32⟩ : BufTy).Contents (Elt F) → (⟨S100000x128, .f32⟩ : BufTy).Contents (Elt F)),
    StableHlo.binary main_v41 main_v43 main_v44 (addf : (⟨S100000x128, .f32⟩ : BufTy).Contents (Elt F) → (⟨S100000x128, .f32⟩ : BufTy).Contents (Elt F) → (⟨S100000x128, .f32⟩ : BufTy).Contents (Elt F)),
    StableHlo.nullary main_cst_10 (constant S_ .f32 0x3E4CCCCD#32),
    StableHlo.nullary main_call0_cst (constant S_ .f32 0x00000000#32),
    StableHlo.unary main_call0_cst main_call0_v0 (broadcastInDim S100000x128 ![] bcast_S_S100000x128 : (⟨S_, .f32⟩ : BufTy).Contents (Elt F) → (⟨S100000x128, .f32⟩ : BufTy).Contents (Elt F)),
    StableHlo.binary main_v44 main_call0_v0 main_call0_v1 (cmpf .oge : (⟨S100000x128, .f32⟩ : BufTy).Contents (Elt F) → (⟨S100000x128, .f32⟩ : BufTy).Contents (Elt F) → (⟨S100000x128, .i1⟩ : BufTy).Contents (Elt F)),
    StableHlo.unary main_cst_10 main_call0_v2 (id : (⟨S_, .f32⟩ : BufTy).Contents (Elt F) → (⟨S_, .f32⟩ : BufTy).Contents (Elt F)),
    StableHlo.unary main_call0_v2 main_call0_v3 (broadcastInDim S100000x128 ![] bcast_S_S100000x128 : (⟨S_, .f32⟩ : BufTy).Contents (Elt F) → (⟨S100000x128, .f32⟩ : BufTy).Contents (Elt F)),
    StableHlo.binary main_call0_v3 main_v44 main_call0_v4 (mulf : (⟨S100000x128, .f32⟩ : BufTy).Contents (Elt F) → (⟨S100000x128, .f32⟩ : BufTy).Contents (Elt F) → (⟨S100000x128, .f32⟩ : BufTy).Contents (Elt F)),
    StableHlo.ternary main_call0_v1 main_v44 main_call0_v4 main_v45 (select : (⟨S100000x128, .i1⟩ : BufTy).Contents (Elt F) → (⟨S100000x128, .f32⟩ : BufTy).Contents (Elt F) → (⟨S100000x128, .f32⟩ : BufTy).Contents (Elt F) → (⟨S100000x128, .f32⟩ : BufTy).Contents (Elt F)),
    StableHlo.unary main_arg6 main_v46 ((transpose S128x128 [1, 0] · transposes_S128x128_S128x128_1_0) : (⟨S128x128, .f32⟩ : BufTy).Contents (Elt F) → (⟨S128x128, .f32⟩ : BufTy).Contents (Elt F)) ]

/-- The 12 operations of the second layer of the vertices' head. -/
abbrev opsV2 : List (HloOp τ sig (Elt F)) :=
  [ StableHlo.binary main_v45 main_v46 main_v47 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg7 main_v48 (broadcastInDim S1x128 ![1] bcast_S128_S1x128_1 : (⟨S128, .f32⟩ : BufTy).Contents (Elt F) → (⟨S1x128, .f32⟩ : BufTy).Contents (Elt F)),
    StableHlo.unary main_v48 main_v49 (broadcastInDim S100000x128 ![0, 1] bcast_S1x128_S100000x128_0_1 : (⟨S1x128, .f32⟩ : BufTy).Contents (Elt F) → (⟨S100000x128, .f32⟩ : BufTy).Contents (Elt F)),
    StableHlo.binary main_v47 main_v49 main_v50 (addf : (⟨S100000x128, .f32⟩ : BufTy).Contents (Elt F) → (⟨S100000x128, .f32⟩ : BufTy).Contents (Elt F) → (⟨S100000x128, .f32⟩ : BufTy).Contents (Elt F)),
    StableHlo.nullary main_cst_11 (constant S_ .f32 0x3E4CCCCD#32),
    StableHlo.nullary main_call1_cst (constant S_ .f32 0x00000000#32),
    StableHlo.unary main_call1_cst main_call1_v0 (broadcastInDim S100000x128 ![] bcast_S_S100000x128 : (⟨S_, .f32⟩ : BufTy).Contents (Elt F) → (⟨S100000x128, .f32⟩ : BufTy).Contents (Elt F)),
    StableHlo.binary main_v50 main_call1_v0 main_call1_v1 (cmpf .oge : (⟨S100000x128, .f32⟩ : BufTy).Contents (Elt F) → (⟨S100000x128, .f32⟩ : BufTy).Contents (Elt F) → (⟨S100000x128, .i1⟩ : BufTy).Contents (Elt F)),
    StableHlo.unary main_cst_11 main_call1_v2 (id : (⟨S_, .f32⟩ : BufTy).Contents (Elt F) → (⟨S_, .f32⟩ : BufTy).Contents (Elt F)),
    StableHlo.unary main_call1_v2 main_call1_v3 (broadcastInDim S100000x128 ![] bcast_S_S100000x128 : (⟨S_, .f32⟩ : BufTy).Contents (Elt F) → (⟨S100000x128, .f32⟩ : BufTy).Contents (Elt F)),
    StableHlo.binary main_call1_v3 main_v50 main_call1_v4 (mulf : (⟨S100000x128, .f32⟩ : BufTy).Contents (Elt F) → (⟨S100000x128, .f32⟩ : BufTy).Contents (Elt F) → (⟨S100000x128, .f32⟩ : BufTy).Contents (Elt F)),
    StableHlo.ternary main_call1_v1 main_v50 main_call1_v4 main_v51 (select : (⟨S100000x128, .i1⟩ : BufTy).Contents (Elt F) → (⟨S100000x128, .f32⟩ : BufTy).Contents (Elt F) → (⟨S100000x128, .f32⟩ : BufTy).Contents (Elt F) → (⟨S100000x128, .f32⟩ : BufTy).Contents (Elt F)) ]

/-- The 26 operations of the faces' head. -/
abbrev opsH : List (HloOp τ sig (Elt F)) :=
  [ StableHlo.unary main_arg8 main_v52 ((transpose S256x128 [1, 0] · transposes_S128x256_S256x128_1_0) : (⟨S128x256, .f32⟩ : BufTy).Contents (Elt F) → (⟨S256x128, .f32⟩ : BufTy).Contents (Elt F)),
    StableHlo.binary main_v39 main_v52 main_v53 ((fun l r => Host.dotGeneral dot_S200000x256_S256x128_S200000x128_1_0_0_1_n_n none l r) : (⟨S200000x256, .f32⟩ : BufTy).Contents (Elt F) → (⟨S256x128, .f32⟩ : BufTy).Contents (Elt F) → (⟨S200000x128, .f32⟩ : BufTy).Contents (Elt F)),
    StableHlo.unary main_arg9 main_v54 (broadcastInDim S1x128 ![1] bcast_S128_S1x128_1 : (⟨S128, .f32⟩ : BufTy).Contents (Elt F) → (⟨S1x128, .f32⟩ : BufTy).Contents (Elt F)),
    StableHlo.unary main_v54 main_v55 (broadcastInDim S200000x128 ![0, 1] bcast_S1x128_S200000x128_0_1 : (⟨S1x128, .f32⟩ : BufTy).Contents (Elt F) → (⟨S200000x128, .f32⟩ : BufTy).Contents (Elt F)),
    StableHlo.binary main_v53 main_v55 main_v56 (addf : (⟨S200000x128, .f32⟩ : BufTy).Contents (Elt F) → (⟨S200000x128, .f32⟩ : BufTy).Contents (Elt F) → (⟨S200000x128, .f32⟩ : BufTy).Contents (Elt F)),
    StableHlo.nullary main_cst_12 (constant S_ .f32 0x3E4CCCCD#32),
    StableHlo.nullary main_call2_cst (constant S_ .f32 0x00000000#32),
    StableHlo.unary main_call2_cst main_call2_v0 (broadcastInDim S200000x128 ![] bcast_S_S200000x128 : (⟨S_, .f32⟩ : BufTy).Contents (Elt F) → (⟨S200000x128, .f32⟩ : BufTy).Contents (Elt F)),
    StableHlo.binary main_v56 main_call2_v0 main_call2_v1 (cmpf .oge : (⟨S200000x128, .f32⟩ : BufTy).Contents (Elt F) → (⟨S200000x128, .f32⟩ : BufTy).Contents (Elt F) → (⟨S200000x128, .i1⟩ : BufTy).Contents (Elt F)),
    StableHlo.unary main_cst_12 main_call2_v2 (id : (⟨S_, .f32⟩ : BufTy).Contents (Elt F) → (⟨S_, .f32⟩ : BufTy).Contents (Elt F)),
    StableHlo.unary main_call2_v2 main_call2_v3 (broadcastInDim S200000x128 ![] bcast_S_S200000x128 : (⟨S_, .f32⟩ : BufTy).Contents (Elt F) → (⟨S200000x128, .f32⟩ : BufTy).Contents (Elt F)),
    StableHlo.binary main_call2_v3 main_v56 main_call2_v4 (mulf : (⟨S200000x128, .f32⟩ : BufTy).Contents (Elt F) → (⟨S200000x128, .f32⟩ : BufTy).Contents (Elt F) → (⟨S200000x128, .f32⟩ : BufTy).Contents (Elt F)),
    StableHlo.ternary main_call2_v1 main_v56 main_call2_v4 main_v57 (select : (⟨S200000x128, .i1⟩ : BufTy).Contents (Elt F) → (⟨S200000x128, .f32⟩ : BufTy).Contents (Elt F) → (⟨S200000x128, .f32⟩ : BufTy).Contents (Elt F) → (⟨S200000x128, .f32⟩ : BufTy).Contents (Elt F)),
    StableHlo.unary main_arg10 main_v58 ((transpose S128x128 [1, 0] · transposes_S128x128_S128x128_1_0) : (⟨S128x128, .f32⟩ : BufTy).Contents (Elt F) → (⟨S128x128, .f32⟩ : BufTy).Contents (Elt F)),
    StableHlo.binary main_v57 main_v58 main_v59 ((fun l r => Host.dotGeneral dot_S200000x128_S128x128_S200000x128_1_0_0_1_n_n none l r) : (⟨S200000x128, .f32⟩ : BufTy).Contents (Elt F) → (⟨S128x128, .f32⟩ : BufTy).Contents (Elt F) → (⟨S200000x128, .f32⟩ : BufTy).Contents (Elt F)),
    StableHlo.unary main_arg11 main_v60 (broadcastInDim S1x128 ![1] bcast_S128_S1x128_1 : (⟨S128, .f32⟩ : BufTy).Contents (Elt F) → (⟨S1x128, .f32⟩ : BufTy).Contents (Elt F)),
    StableHlo.unary main_v60 main_v61 (broadcastInDim S200000x128 ![0, 1] bcast_S1x128_S200000x128_0_1 : (⟨S1x128, .f32⟩ : BufTy).Contents (Elt F) → (⟨S200000x128, .f32⟩ : BufTy).Contents (Elt F)),
    StableHlo.binary main_v59 main_v61 main_v62 (addf : (⟨S200000x128, .f32⟩ : BufTy).Contents (Elt F) → (⟨S200000x128, .f32⟩ : BufTy).Contents (Elt F) → (⟨S200000x128, .f32⟩ : BufTy).Contents (Elt F)),
    StableHlo.nullary main_cst_13 (constant S_ .f32 0x3E4CCCCD#32),
    StableHlo.nullary main_call3_cst (constant S_ .f32 0x00000000#32),
    StableHlo.unary main_call3_cst main_call3_v0 (broadcastInDim S200000x128 ![] bcast_S_S200000x128 : (⟨S_, .f32⟩ : BufTy).Contents (Elt F) → (⟨S200000x128, .f32⟩ : BufTy).Contents (Elt F)),
    StableHlo.binary main_v62 main_call3_v0 main_call3_v1 (cmpf .oge : (⟨S200000x128, .f32⟩ : BufTy).Contents (Elt F) → (⟨S200000x128, .f32⟩ : BufTy).Contents (Elt F) → (⟨S200000x128, .i1⟩ : BufTy).Contents (Elt F)),
    StableHlo.unary main_cst_13 main_call3_v2 (id : (⟨S_, .f32⟩ : BufTy).Contents (Elt F) → (⟨S_, .f32⟩ : BufTy).Contents (Elt F)),
    StableHlo.unary main_call3_v2 main_call3_v3 (broadcastInDim S200000x128 ![] bcast_S_S200000x128 : (⟨S_, .f32⟩ : BufTy).Contents (Elt F) → (⟨S200000x128, .f32⟩ : BufTy).Contents (Elt F)),
    StableHlo.binary main_call3_v3 main_v62 main_call3_v4 (mulf : (⟨S200000x128, .f32⟩ : BufTy).Contents (Elt F) → (⟨S200000x128, .f32⟩ : BufTy).Contents (Elt F) → (⟨S200000x128, .f32⟩ : BufTy).Contents (Elt F)),
    StableHlo.ternary main_call3_v1 main_v62 main_call3_v4 main_v63 (select : (⟨S200000x128, .i1⟩ : BufTy).Contents (Elt F) → (⟨S200000x128, .f32⟩ : BufTy).Contents (Elt F) → (⟨S200000x128, .f32⟩ : BufTy).Contents (Elt F) → (⟨S200000x128, .f32⟩ : BufTy).Contents (Elt F)) ]

/-- The whole line: the program's first window, then its second. -/
abbrev ops : List (HloOp τ sig (Elt F)) := (opsF ++ opsV1) ++ (opsV2 ++ opsH)

/-- Folding over two lines in a row is folding over the first and then over the second. -/
theorem after_append' {τ : Topo} {sig : RefSig} {Val : EltTy → Type} :
    ∀ (l₁ l₂ : List (HloOp τ sig Val)) (V : Valuation τ sig Val), after (l₁ ++ l₂) V = after l₂ (after l₁ V)
  | [], _, _ => rfl
  | op :: l₁, l₂, V => by rw [List.cons_append, after_cons, after_cons, after_append' l₁ l₂]

theorem scopedRefs_eq : (Finset.univ.filter fun b : Ref sig .tc => b.isScoped) = ∅ := by decide
theorem scopedSems_eq : (Finset.univ.filter fun sm : SemLoc sig => sm.isScoped .tc) = ∅ := by decide

theorem opsF_sub : (opsF : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub ..⟩
theorem opsV1_sub : (opsV1 : List (HloOp τ sig (Elt F))).Forall fun op => op.bufs ⊆ tcRefs τ sig :=
  ⟨unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub ..⟩
theorem opsV2_sub : (opsV2 : List (HloOp τ sig (Elt F))).Forall fun op => op.bufs ⊆ tcRefs τ sig :=
  ⟨binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩
theorem opsH_sub : (opsH : List (HloOp τ sig (Elt F))).Forall fun op => op.bufs ⊆ tcRefs τ sig :=
  ⟨unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩
theorem ops_sub : (ops : List (HloOp τ sig (Elt F))).Forall fun op => op.bufs ⊆ tcRefs τ sig :=
  List.forall_append.mpr ⟨List.forall_append.mpr ⟨opsF_sub, opsV1_sub⟩, List.forall_append.mpr ⟨opsV2_sub, opsH_sub⟩⟩

theorem opsF_fresh : ∀ op ∈ (opsF : List (HloOp τ sig (Elt F))), op.fresh = ∅ := by
  intro _ h; (repeat (cases h with | head => rfl | tail _ h => ?_)); exact nomatch h
theorem opsV1_fresh : ∀ op ∈ (opsV1 : List (HloOp τ sig (Elt F))), op.fresh = ∅ := by
  intro _ h; (repeat (cases h with | head => rfl | tail _ h => ?_)); exact nomatch h
theorem opsV2_fresh : ∀ op ∈ (opsV2 : List (HloOp τ sig (Elt F))), op.fresh = ∅ := by
  intro _ h; (repeat (cases h with | head => rfl | tail _ h => ?_)); exact nomatch h
theorem opsH_fresh : ∀ op ∈ (opsH : List (HloOp τ sig (Elt F))), op.fresh = ∅ := by
  intro _ h; (repeat (cases h with | head => rfl | tail _ h => ?_)); exact nomatch h
theorem ops_fresh : ∀ op ∈ (ops : List (HloOp τ sig (Elt F))), op.fresh = ∅ := fun op h =>
  (List.mem_append.mp h).elim (fun h => (List.mem_append.mp h).elim (opsF_fresh op) (opsV1_fresh op))
    fun h => (List.mem_append.mp h).elim (opsV2_fresh op) (opsH_fresh op)

end Cert.RefSide

end
-- ==== Proof.RefRun.lean ====
/-
  The reference program's run.

  The program is the straight line of its 104 operations: each of its two windows is the line of its own operations —
  unfolding the functions' definitions where they are called and re-associating the sequencing is a computation —, and
  two lines run one after the other are their concatenation run as one. Every weakly fair execution therefore
  terminates with each buffer holding the fold of the operations over the launch contents.
-/
import proofs.«161651_j40544491274781_1_alg».proof.Proof.RefOps

noncomputable section

namespace Cert.RefSide

open Cert.ReferenceIdeal Idealize.ShloMosaic Idealize.ShloMosaic.TcCoe Idealize.SL.Sem Idealize.ShloMosaic.StableHlo

variable {F : FTy → Type} [FloatOps F] [Cert.ReferenceIdeal.Facts]
open Cert.ReferenceIdeal.Facts₀ Cert.ReferenceIdeal.Facts

set_option maxRecDepth 65536 in
set_option maxHeartbeats 4000000 in
/-- The first window is the line of the feature tables' operations and the first layer of the vertices' head. -/
theorem part0_eq (c : Dev nD) : main_part0 (F := F) c = seq (opsF ++ opsV1) := rfl

set_option maxRecDepth 65536 in
set_option maxHeartbeats 4000000 in
/-- The second window is the line of the second layer of the vertices' head and the faces' head. -/
theorem part1_eq (c : Dev nD) : main_part1 (F := F) c = seq (opsV2 ++ opsH) := rfl

/-- The program is the whole line. -/
theorem main_eq (c : Dev nD) : main (F := F) c = seq ops := by
  show (main_part0 (F := F) c >>= fun _ => main_part1 (F := F) c) = seq ((opsF ++ opsV1) ++ (opsV2 ++ opsH))
  rw [seq_append, part0_eq, part1_eq]

/-- Every weakly fair execution of the program terminates, and at the end every buffer holds the fold of the line's
    operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.RefSide

end
-- ==== Proof.RefKeep.lean ====
/-
  Which buffers each of the four lists of operations writes, and that the others keep their contents.

  Every operation of the reference program writes exactly one buffer. A buffer not among those a list writes holds after
  the list what it held before: the twelve argument arrays through the whole program, each feature table through the
  heads, the vertices' result through the faces' head.
-/
import proofs.«161651_j40544491274781_1_alg».proof.Proof.RefOps

noncomputable section

namespace Cert.RefSide

open Cert.ReferenceIdeal Idealize.ShloMosaic Idealize.ShloMosaic.TcCoe Idealize.SL.Sem Idealize.ShloMosaic.StableHlo

variable {F : FTy → Type} [FloatOps F] [Cert.ReferenceIdeal.Facts]
open Cert.ReferenceIdeal.Facts₀ Cert.ReferenceIdeal.Facts

/-- A single written buffer lies among a list of references that names it. -/
theorem wsub {W : List (Ref sig .tc)} (y : Ref sig .tc) (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

/-- The buffers the feature tables' operations write. -/
abbrev wF : List (Ref sig .tc) :=
  [main_c, main_v0, main_v1, main_c_0, main_v2, main_v3, main_v4, main_v5, main_v6, main_cst, main_v7, main_v8, main_v9, main_cst_1, main_v10, main_cst_2, main_v11, main_v12, main_v13, main_cst_3, main_v14, main_v15, main_v16, main_v17, main_v18, main_v19, main_c_4, main_v20, main_v21, main_c_5, main_v22, main_v23, main_v24, main_v25, main_v26, main_cst_6, main_v27, main_v28, main_v29, main_cst_7, main_v30, main_cst_8, main_v31, main_v32, main_v33, main_cst_9, main_v34, main_v35, main_v36, main_v37, main_v38, main_v39]
/-- The buffers the first layer of the vertices' head writes. -/
abbrev wV1 : List (Ref sig .tc) :=
  [main_v40, main_v41, main_v42, main_v43, main_v44, main_cst_10, main_call0_cst, main_call0_v0, main_call0_v1, main_call0_v2, main_call0_v3, main_call0_v4, main_v45, main_v46]
/-- The buffers the second layer of the vertices' head writes. -/
abbrev wV2 : List (Ref sig .tc) :=
  [main_v47, main_v48, main_v49, main_v50, main_cst_11, main_call1_cst, main_call1_v0, main_call1_v1, main_call1_v2, main_call1_v3, main_call1_v4, main_v51]
/-- The buffers the faces' head writes. -/
abbrev wH : List (Ref sig .tc) :=
  [main_v52, main_v53, main_v54, main_v55, main_v56, main_cst_12, main_call2_cst, main_call2_v0, main_call2_v1, main_call2_v2, main_call2_v3, main_call2_v4, main_v57, main_v58, main_v59, main_v60, main_v61, main_v62, main_cst_13, main_call3_cst, main_call3_v0, main_call3_v1, main_call3_v2, main_call3_v3, main_call3_v4, main_v63]

theorem opsF_writes : (opsF : List (HloOp τ sig (Elt F))).Forall fun op =>
    op.writes ⊆ (wF.map (Proc.devRef (τ := τ) .tc)).toFinset :=
  ⟨wsub main_c (by decide), wsub main_v0 (by decide), wsub main_v1 (by decide), wsub main_c_0 (by decide), wsub main_v2 (by decide), wsub main_v3 (by decide), wsub main_v4 (by decide), wsub main_v5 (by decide), wsub main_v6 (by decide), wsub main_cst (by decide), wsub main_v7 (by decide), wsub main_v8 (by decide), wsub main_v9 (by decide), wsub main_cst_1 (by decide), wsub main_v10 (by decide), wsub main_cst_2 (by decide), wsub main_v11 (by decide), wsub main_v12 (by decide), wsub main_v13 (by decide), wsub main_cst_3 (by decide), wsub main_v14 (by decide), wsub main_v15 (by decide), wsub main_v16 (by decide), wsub main_v17 (by decide), wsub main_v18 (by decide), wsub main_v19 (by decide), wsub main_c_4 (by decide), wsub main_v20 (by decide), wsub main_v21 (by decide), wsub main_c_5 (by decide), wsub main_v22 (by decide), wsub main_v23 (by decide), wsub main_v24 (by decide), wsub main_v25 (by decide), wsub main_v26 (by decide), wsub main_cst_6 (by decide), wsub main_v27 (by decide), wsub main_v28 (by decide), wsub main_v29 (by decide), wsub main_cst_7 (by decide), wsub main_v30 (by decide), wsub main_cst_8 (by decide), wsub main_v31 (by decide), wsub main_v32 (by decide), wsub main_v33 (by decide), wsub main_cst_9 (by decide), wsub main_v34 (by decide), wsub main_v35 (by decide), wsub main_v36 (by decide), wsub main_v37 (by decide), wsub main_v38 (by decide), wsub main_v39 (by decide)⟩
theorem opsV1_writes : (opsV1 : List (HloOp τ sig (Elt F))).Forall fun op =>
    op.writes ⊆ (wV1.map (Proc.devRef (τ := τ) .tc)).toFinset :=
  ⟨wsub main_v40 (by decide), wsub main_v41 (by decide), wsub main_v42 (by decide), wsub main_v43 (by decide), wsub main_v44 (by decide), wsub main_cst_10 (by decide), wsub main_call0_cst (by decide), wsub main_call0_v0 (by decide), wsub main_call0_v1 (by decide), wsub main_call0_v2 (by decide), wsub main_call0_v3 (by decide), wsub main_call0_v4 (by decide), wsub main_v45 (by decide), wsub main_v46 (by decide)⟩
theorem opsV2_writes : (opsV2 : List (HloOp τ sig (Elt F))).Forall fun op =>
    op.writes ⊆ (wV2.map (Proc.devRef (τ := τ) .tc)).toFinset :=
  ⟨wsub main_v47 (by decide), wsub main_v48 (by decide), wsub main_v49 (by decide), wsub main_v50 (by decide), wsub main_cst_11 (by decide), wsub main_call1_cst (by decide), wsub main_call1_v0 (by decide), wsub main_call1_v1 (by decide), wsub main_call1_v2 (by decide), wsub main_call1_v3 (by decide), wsub main_call1_v4 (by decide), wsub main_v51 (by decide)⟩
theorem opsH_writes : (opsH : List (HloOp τ sig (Elt F))).Forall fun op =>
    op.writes ⊆ (wH.map (Proc.devRef (τ := τ) .tc)).toFinset :=
  ⟨wsub main_v52 (by decide), wsub main_v53 (by decide), wsub main_v54 (by decide), wsub main_v55 (by decide), wsub main_v56 (by decide), wsub main_cst_12 (by decide), wsub main_call2_cst (by decide), wsub main_call2_v0 (by decide), wsub main_call2_v1 (by decide), wsub main_call2_v2 (by decide), wsub main_call2_v3 (by decide), wsub main_call2_v4 (by decide), wsub main_v57 (by decide), wsub main_v58 (by decide), wsub main_v59 (by decide), wsub main_v60 (by decide), wsub main_v61 (by decide), wsub main_v62 (by decide), wsub main_cst_13 (by decide), wsub main_call3_cst (by decide), wsub main_call3_v0 (by decide), wsub main_call3_v1 (by decide), wsub main_call3_v2 (by decide), wsub main_call3_v3 (by decide), wsub main_call3_v4 (by decide), wsub main_v63 (by decide)⟩

variable (V : Valuation τ sig (Elt F)) {r : Ref sig .tc}

theorem keepF (hr : r ∉ wF) : after opsF V (r : DevRef τ sig) = V (r : DevRef τ sig) :=
  after_of_writes_sub opsF V opsF_writes hr
theorem keepV1 (hr : r ∉ wV1) : after opsV1 V (r : DevRef τ sig) = V (r : DevRef τ sig) :=
  after_of_writes_sub opsV1 V opsV1_writes hr
theorem keepV2 (hr : r ∉ wV2) : after opsV2 V (r : DevRef τ sig) = V (r : DevRef τ sig) :=
  after_of_writes_sub opsV2 V opsV2_writes hr
theorem keepH (hr : r ∉ wH) : after opsH V (r : DevRef τ sig) = V (r : DevRef τ sig) :=
  after_of_writes_sub opsH V opsH_writes hr

/-- The fold over the whole line is the fold over the four lists in turn. -/
theorem after_ops : after ops V = after opsH (after opsV2 (after opsV1 (after opsF V))) := by
  show after ((opsF ++ opsV1) ++ (opsV2 ++ opsH)) V = _
  rw [after_append', after_append', after_append']

/-- A buffer none of the four lists writes holds at the end what it held at the launch. -/
theorem keep_all (hF : r ∉ wF) (h1 : r ∉ wV1) (h2 : r ∉ wV2) (hH : r ∉ wH) :
    after ops V (r : DevRef τ sig) = V (r : DevRef τ sig) := by
  rw [after_ops, keepH _ hH, keepV2 _ h2, keepV1 _ h1, keepF _ hF]

end Cert.RefSide

end
-- ==== Proof.LibHostDot.lean ====
/-
  A plain matrix product on the host, read at an index, on the extended reals.

  For dimension numbers that contract the left operand's second axis against the right operand's first — an [M, K] array
  times a [K, P] array — the host's product read at row `p` and column `q` is `Σ k, l (p, k) · r (k, q)` over the K
  contraction coordinates: the sum over the contraction's index set, which has one axis, re-indexed through that axis's
  coordinate. The two facts about the free axes are taken as hypotheses, since for given dimension numbers they hold by
  computation.
-/
import Idealize.ShloMosaic.PureOps.Ideal.Laws
import Idealize.ShloMosaic.Lib.ValueIdx

noncomputable section

open scoped BigOperators

namespace Cert.LibHostDot

open Idealize.ShloMosaic Idealize.ShloMosaic.ValueIdx

/-- The host's matrix product at (p, q) is the sum over the contraction coordinate of the left operand at (p, k) times the
    right operand at (k, q). -/
theorem dotGeneral_plain_apply {M K P : ℕ} {φ₁ φ₂ : FTy}
    (D : DotDims ⟨2, ![M, K]⟩ ⟨2, ![K, P]⟩ ⟨2, ![M, P]⟩)
    (hlc : D.lhsContracting = [1]) (hrc : D.rhsContracting = [0])
    (hl0 : ∀ (j : (⟨2, ![M, P]⟩ : Shape).Idx) (c : D.contr.Idx), (D.lhsIdx j c 0).val = (j 0).val)
    (hr1 : ∀ (j : (⟨2, ![M, P]⟩ : Shape).Idx) (c : D.contr.Idx), (D.rhsIdx j c 1).val = (j 1).val)
    (hrank : D.contr.rank = 1) (hsize : D.contr.size ⟨0, by omega⟩ = K)
    (prec : Option ContractPrecision)
    (l : FVec Ideal ⟨2, ![M, K]⟩ φ₁) (r : FVec Ideal ⟨2, ![K, P]⟩ φ₂) (p : Fin M) (q : Fin P) :
    Host.dotGeneral D prec l r (ix2 p q) = ∑ k : Fin K, l (ix2 p k) * r (ix2 k q) := by
  simp only [Host.dotGeneral]
  rw [Ideal.dotGeneral_apply, ← Equiv.sum_comp (contrEquiv1 D K hrank hsize).symm]
  refine Finset.sum_congr rfl fun k _ => ?_
  have hk := contrEquiv1_symm_val D K hrank hsize k
  have el : D.lhsIdx (ix2 p q) ((contrEquiv1 D K hrank hsize).symm k) = ix2 p k := funext fun a => Fin.ext (by
    match a with
    | ⟨0, _⟩ => exact hl0 _ _
    | ⟨1, _⟩ => exact (D.lhsIdx_val_of_single hlc _ _).trans hk)
  have er : D.rhsIdx (ix2 p q) ((contrEquiv1 D K hrank hsize).symm k) = ix2 k q := funext fun a => Fin.ext (by
    match a with
    | ⟨0, _⟩ => exact (D.rhsIdx_val_of_single hrc _ _).trans hk
    | ⟨1, _⟩ => exact hr1 _ _)
  rw [el, er]

end Cert.LibHostDot

end
-- ==== Proof.LibBiasRow.lean ====
/-
  A bias vector used against every row of a table, and a scalar filling a table.

  A length-b vector added to every row of an [a, b] table is first made a [1, b] row and then repeated along the rows.
  Whether the row is made by a reshape and repeated by a trailing-axes broadcast, or made by placing the vector's axis
  on the table's second axis and repeated by an axis-by-axis broadcast, the repeated table holds at (p, k) the vector's
  entry k. A scalar broadcast to a table holds the scalar everywhere.
-/
import Idealize.ShloMosaic.Lib.Pipeline.Value
import Idealize.ShloMosaic.Lib.ValueIdx
import Idealize.ShloMosaic.Lib.ValueLayout

noncomputable section

namespace Cert.LibBiasRow

open Idealize.ShloMosaic Idealize.ShloMosaic.ValueIdx

variable {α : Type}

/-- The vector placed on the second axis of a [1, b] row, the row then broadcast axis by axis to [a, b]: at (p, k) the
    vector at k. -/
theorem placed_row_apply {a b : ℕ} (x : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (k : Fin b) :
    broadcastInDim ⟨2, ![a, b]⟩ ![0, 1] h2 (broadcastInDim ⟨2, ![1, b]⟩ ![1] h1 x) (ix2 p k) = x (ix1 k) := by
  refine (broadcastInDim_apply ![0, 1] h2 _ (ix2 p k) (ix2 (0 : Fin 1) k) fun ax => ?_).trans ?_
  · match ax with
    | ⟨0, _⟩ => rfl
    | ⟨1, _⟩ =>
      show k.val = if b = 1 then 0 else k.val
      split
      · have := k.isLt; omega
      · rfl
  · refine broadcastInDim_apply ![1] h1 x (ix2 (0 : Fin 1) k) (ix1 k) fun ax => ?_
    match ax with
    | ⟨0, _⟩ =>
      show k.val = if b = 1 then 0 else k.val
      split
      · have := k.isLt; omega
      · rfl

/-- The vector reshaped to a [1, b] row, the row then broadcast over the leading axis to [a, b]: at (p, k) the vector
    at k. -/
theorem reshaped_row_apply {a b : ℕ} (x : (⟨1, ![b]⟩ : Shape).Idx → α)
    (h1 : (⟨1, ![b]⟩ : Shape).ShapeCasts ⟨2, ![1, b]⟩)
    (h2 : (⟨2, ![1, b]⟩ : Shape).Broadcasts ⟨2, ![a, b]⟩) (p : Fin a) (k : Fin b) :
    broadcastTo ⟨2, ![a, b]⟩ (shapeCast ⟨2, ![1, b]⟩ x h1) h2 (ix2 p k) = x (ix1 k) := by
  refine (broadcastTo_apply _ h2 (ix2 p k) (ix2 (0 : Fin 1) k) fun ax => ?_).trans (shapeCast_a_1a_apply x h1 0 k)
  match ax with
  | ⟨0, _⟩ => rfl
  | ⟨1, _⟩ =>
    show k.val = if b = 1 then 0 else k.val
    split
    · have := k.isLt; omega
    · rfl

/-- A scalar broadcast to any shape holds the scalar at every index. -/
theorem fill_apply {t : Shape} (z : (⟨0, ![]⟩ : Shape).Idx → α) (h : (⟨0, ![]⟩ : Shape).BroadcastsInDim t ![]) (j : t.Idx) :
    broadcastInDim t ![] h z j = z ix0 :=
  broadcastInDim_apply ![] h z j ix0 fun ax => ax.elim0

end Cert.LibBiasRow

end
-- ==== Proof.RefHead.lean ====
/-
  The head computed as whole tables, the way the reference program computes it, is the head entry by entry.

  One layer of the reference's head takes an [N, K] table x, a [128, K] weight table W and a bias vector b: it transposes
  W, multiplies x by the transpose on the host, adds b to every row, and applies the leaky rectifier to the whole table
  (a comparison with a table of zeros selects between the table itself and the table times a table of slopes). Read at
  row p and column q this is the leaky rectifier of the dot product of row p of x with row q of W plus entry q of b. Two
  layers in a row are the head of the specification; the only algebra used is that the slope times a number is the number
  times the slope.
-/
import proofs.«161651_j40544491274781_1_alg».proof.Proof.HeadSpec
import proofs.«161651_j40544491274781_1_alg».proof.Proof.LibHostDot
import proofs.«161651_j40544491274781_1_alg».proof.Proof.LibBiasRow
import Idealize.ShloMosaic.Lib.ValueLayout

noncomputable section

open scoped BigOperators

namespace Cert.RefSide

open Idealize.ShloMosaic Idealize.ShloMosaic.ValueIdx Cert.HeadSpec

/-- What the host product's reading asks of the dimension numbers of an [M, K] by [K, P] product: the second axis of the
    left operand is contracted against the first of the right, and the free axes are read where the result's are. -/
structure PlainDot {M K P : ℕ} (D : DotDims ⟨2, ![M, K]⟩ ⟨2, ![K, P]⟩ ⟨2, ![M, P]⟩) : Prop where
  hlc : D.lhsContracting = [1]
  hrc : D.rhsContracting = [0]
  hl0 : ∀ (j : (⟨2, ![M, P]⟩ : Shape).Idx) (c : D.contr.Idx), (D.lhsIdx j c 0).val = (j 0).val
  hr1 : ∀ (j : (⟨2, ![M, P]⟩ : Shape).Idx) (c : D.contr.Idx), (D.rhsIdx j c 1).val = (j 1).val
  hrank : D.contr.rank = 1
  hsize : D.contr.size ⟨0, by omega⟩ = K

/-- The leaky rectifier over a whole table: where the table is at least the table of zeros, the table itself; elsewhere
    the table of slopes times the table. -/
def leakyArr {s : Shape} (hf : (⟨0, ![]⟩ : Shape).BroadcastsInDim s ![]) (slope : FVec Ideal ⟨0, ![]⟩ .f32)
    (x : FVec Ideal s .f32) : FVec Ideal s .f32 :=
  select (cmpf .oge x (broadcastInDim s ![] hf (constant (F := Ideal) ⟨0, ![]⟩ .f32 0x00000000#32))) x
    (mulf (broadcastInDim s ![] hf (id slope)) x)

/-- At every index the table form is the scalar rectifier: the slope times x is x times the slope. -/
theorem leakyArr_apply {s : Shape} (hf : (⟨0, ![]⟩ : Shape).BroadcastsInDim s ![]) (x : FVec Ideal s .f32) (j : s.Idx) :
    leakyArr hf (constant (F := Ideal) ⟨0, ![]⟩ .f32 0x3E4CCCCD#32) x j = leaky (x j) := by
  have h0 : broadcastInDim s ![] hf (constant (F := Ideal) ⟨0, ![]⟩ .f32 0x00000000#32) j
      = Ideal.ofBits .f32 0x00000000#32 := LibBiasRow.fill_apply _ hf j
  have h1 : broadcastInDim s ![] hf (id (constant (F := Ideal) ⟨0, ![]⟩ .f32 0x3E4CCCCD#32)) j
      = Ideal.ofBits .f32 0x3E4CCCCD#32 := LibBiasRow.fill_apply _ hf j
  unfold leakyArr leaky
  rw [select_apply, cmpf_apply, mulf_apply, h0, h1, mul_comm (Ideal.ofBits .f32 0x3E4CCCCD#32) (x j)]

/-- One layer of the reference's head over whole tables, the weight table already transposed: the product, the bias row
    added, the rectifier. -/
def layerT {N K : ℕ} (D : DotDims ⟨2, ![N, K]⟩ ⟨2, ![K, 128]⟩ ⟨2, ![N, 128]⟩)
    (h1 : (⟨1, ![128]⟩ : Shape).BroadcastsInDim ⟨2, ![1, 128]⟩ ![1])
    (h2 : (⟨2, ![1, 128]⟩ : Shape).BroadcastsInDim ⟨2, ![N, 128]⟩ ![0, 1])
    (hf : (⟨0, ![]⟩ : Shape).BroadcastsInDim ⟨2, ![N, 128]⟩ ![])
    (x : FVec Ideal ⟨2, ![N, K]⟩ .f32) (Wt : FVec Ideal ⟨2, ![K, 128]⟩ .f32) (b : FVec Ideal ⟨1, ![128]⟩ .f32) :
    FVec Ideal ⟨2, ![N, 128]⟩ .f32 :=
  leakyArr hf (constant (F := Ideal) ⟨0, ![]⟩ .f32 0x3E4CCCCD#32)
    (addf (Host.dotGeneral D none x Wt)
      (broadcastInDim ⟨2, ![N, 128]⟩ ![0, 1] h2 (broadcastInDim ⟨2, ![1, 128]⟩ ![1] h1 b)))

/-- One layer of the reference's head over whole tables: the weight table transposed, then the layer above. -/
def layerArr {N K : ℕ} (D : DotDims ⟨2, ![N, K]⟩ ⟨2, ![K, 128]⟩ ⟨2, ![N, 128]⟩)
    (ht : (⟨2, ![128, K]⟩ : Shape).Transposes [1, 0] ⟨2, ![K, 128]⟩)
    (h1 : (⟨1, ![128]⟩ : Shape).BroadcastsInDim ⟨2, ![1, 128]⟩ ![1])
    (h2 : (⟨2, ![1, 128]⟩ : Shape).BroadcastsInDim ⟨2, ![N, 128]⟩ ![0, 1])
    (hf : (⟨0, ![]⟩ : Shape).BroadcastsInDim ⟨2, ![N, 128]⟩ ![])
    (x : FVec Ideal ⟨2, ![N, K]⟩ .f32) (W : FVec Ideal ⟨2, ![128, K]⟩ .f32) (b : FVec Ideal ⟨1, ![128]⟩ .f32) :
    FVec Ideal ⟨2, ![N, 128]⟩ .f32 :=
  layerT D h1 h2 hf x (transpose ⟨2, ![K, 128]⟩ [1, 0] W ht) b

/-- The layer at row p and column q: the rectifier of row p of x against row q of W, plus entry q of b. -/
theorem layerArr_apply {N K : ℕ} (D : DotDims ⟨2, ![N, K]⟩ ⟨2, ![K, 128]⟩ ⟨2, ![N, 128]⟩) (hD : PlainDot D)
    (ht : (⟨2, ![128, K]⟩ : Shape).Transposes [1, 0] ⟨2, ![K, 128]⟩)
    (h1 : (⟨1, ![128]⟩ : Shape).BroadcastsInDim ⟨2, ![1, 128]⟩ ![1])
    (h2 : (⟨2, ![1, 128]⟩ : Shape).BroadcastsInDim ⟨2, ![N, 128]⟩ ![0, 1])
    (hf : (⟨0, ![]⟩ : Shape).BroadcastsInDim ⟨2, ![N, 128]⟩ ![])
    (x : FVec Ideal ⟨2, ![N, K]⟩ .f32) (W : FVec Ideal ⟨2, ![128, K]⟩ .f32) (b : FVec Ideal ⟨1, ![128]⟩ .f32)
    (p : Fin N) (q : Fin 128) :
    layerArr D ht h1 h2 hf x W b (ix2 p q)
      = leaky (affine (fun k => x (ix2 p k)) (fun k => W (ix2 q k)) (b (ix1 q))) := by
  unfold layerArr layerT
  rw [leakyArr_apply, addf_apply,
    LibHostDot.dotGeneral_plain_apply D hD.hlc hD.hrc hD.hl0 hD.hr1 hD.hrank hD.hsize none x _ p q,
    LibBiasRow.placed_row_apply b h1 h2 p q]
  unfold affine
  refine congrArg leaky (congrArg (· + b (ix1 q)) (Finset.sum_congr rfl fun k _ => ?_))
  rw [transpose_ix2_apply W ht k q]

/-- Two layers in a row are the head of the specification. -/
theorem layers_eq_headTable {N : ℕ} (D1 : DotDims ⟨2, ![N, 256]⟩ ⟨2, ![256, 128]⟩ ⟨2, ![N, 128]⟩)
    (D2 : DotDims ⟨2, ![N, 128]⟩ ⟨2, ![128, 128]⟩ ⟨2, ![N, 128]⟩) (hD1 : PlainDot D1) (hD2 : PlainDot D2)
    (ht1 : (⟨2, ![128, 256]⟩ : Shape).Transposes [1, 0] ⟨2, ![256, 128]⟩)
    (ht2 : (⟨2, ![128, 128]⟩ : Shape).Transposes [1, 0] ⟨2, ![128, 128]⟩)
    (h1 : (⟨1, ![128]⟩ : Shape).BroadcastsInDim ⟨2, ![1, 128]⟩ ![1])
    (h2 : (⟨2, ![1, 128]⟩ : Shape).BroadcastsInDim ⟨2, ![N, 128]⟩ ![0, 1])
    (hf : (⟨0, ![]⟩ : Shape).BroadcastsInDim ⟨2, ![N, 128]⟩ ![])
    (hv : FVec Ideal ⟨2, ![N, 256]⟩ .f32) (W1 : FVec Ideal ⟨2, ![128, 256]⟩ .f32) (B1 : FVec Ideal ⟨1, ![128]⟩ .f32)
    (W2 : FVec Ideal ⟨2, ![128, 128]⟩ .f32) (B2 : FVec Ideal ⟨1, ![128]⟩ .f32) :
    layerArr D2 ht2 h1 h2 hf (layerArr D1 ht1 h1 h2 hf hv W1 B1) W2 B2 = headTable hv W1 B1 W2 B2 := by
  funext i
  obtain ⟨p, q, rfl⟩ : ∃ (p : Fin N) (q : Fin 128), i = ix2 p q := ⟨i 0, i 1, eq_ix2 i⟩
  have inner : (fun k : Fin 128 => layerArr D1 ht1 h1 h2 hf hv W1 B1 (ix2 p k))
      = fun k => leaky (affine (fun j => hv (ix2 p j)) (fun j => W1 (ix2 k j)) (B1 (ix1 k))) :=
    funext fun k => layerArr_apply D1 hD1 ht1 h1 h2 hf hv W1 B1 p k
  rw [layerArr_apply D2 hD2 ht2 h1 h2 hf _ W2 B2 p q, inner, headTable_apply]
  rfl

end Cert.RefSide

end
-- ==== Proof.RefRead.lean ====
/-
  What the four lists of operations leave in the buffers the comparison reads.

  Folded over any contents, the feature tables' operations leave in their two result buffers the two feature tables of the
  four graph inputs; the first layer of the vertices' head leaves its layer of the vertices' table, and the second weight
  table transposed; the second layer leaves its layer of what the first left; the faces' head leaves its two layers of the
  faces' table. Each buffer is read off the fold by rewriting every operation's result at the buffer it writes and
  passing over it at every other buffer. A feature table is two halves put side by side: the halves are read separately.
  The dimension records and shape facts of the two programs have the same fields, so the terms agree as they stand.
-/
import proofs.«161651_j40544491274781_1_alg».proof.Proof.RefOps
import proofs.«161651_j40544491274781_1_alg».proof.Proof.RefHead
import proofs.«161651_j40544491274781_1_alg».proof.Proof.Fusion

noncomputable section

namespace Cert.RefSide

open Cert.ReferenceIdeal Idealize.ShloMosaic Idealize.ShloMosaic.TcCoe Idealize.SL.Sem Idealize.ShloMosaic.StableHlo
open Cert.KernelIdeal.Fused

variable [Cert.KernelIdeal.Facts] [Cert.ReferenceIdeal.Facts]
open Cert.ReferenceIdeal.Facts₀ Cert.ReferenceIdeal.Facts

variable (V : Valuation τ sig (Elt Ideal))

/-- Two tables put side by side are equal when their parts are. -/
theorem concat2_congr {α : Type} (t : Shape) (ax : Fin t.rank) (s₁ s₂ : Shape) {a a' : s₁.Idx → α} {b b' : s₂.Idx → α}
    (h : Shape.Concatenates [s₁, s₂] t ax) (ha : a = a') (hb : b = b') :
    concatenate t ax [⟨s₁, a⟩, ⟨s₂, b⟩] h = concatenate t ax [⟨s₁, a'⟩, ⟨s₂, b'⟩] h := by
  subst ha hb; rfl

set_option maxHeartbeats 4000000 in
/-- The vertices' feature table: the operations after the one that puts the two halves side by side leave its buffer
    alone; the left half is the vertices' own array, the right half the mean the operations before compute. -/
theorem read_v19 : after (opsF (F := Ideal)) V (main_v19 : DevRef τ sig)
    = fusedV (F := Ideal) (V (main_arg0 : DevRef τ sig)) (V (main_arg1 : DevRef τ sig)) (V (main_arg2 : DevRef τ sig)) (V (main_arg3 : DevRef τ sig)) := by
  simp (disch := decide) only [after_cons, after_nil, nullary_result_ne', unary_result_ne', binary_result_ne',
    ternary_result_ne']
  rw [binary_result]
  exact concat2_congr _ _ _ _ _ (by after_results_simp) (by after_results_simp; rfl)

set_option maxHeartbeats 4000000 in
/-- The faces' feature table, in the same way. -/
theorem read_v39 : after (opsF (F := Ideal)) V (main_v39 : DevRef τ sig)
    = fusedF (F := Ideal) (V (main_arg0 : DevRef τ sig)) (V (main_arg1 : DevRef τ sig)) (V (main_arg2 : DevRef τ sig)) (V (main_arg3 : DevRef τ sig)) := by
  simp only [after_cons, after_nil]
  rw [binary_result]
  exact concat2_congr _ _ _ _ _ (by after_results_simp) (by after_results_simp; rfl)

set_option maxHeartbeats 4000000 in
/-- The first layer of the vertices' head. -/
theorem read_v45 : after (opsV1 (F := Ideal)) V (main_v45 : DevRef τ sig)
    = layerArr dot_S100000x256_S256x128_S100000x128_1_0_0_1_n_n transposes_S128x256_S256x128_1_0 bcast_S128_S1x128_1
        bcast_S1x128_S100000x128_0_1 bcast_S_S100000x128 (V (main_v19 : DevRef τ sig)) (V (main_arg4 : DevRef τ sig)) (V (main_arg5 : DevRef τ sig)) := by
  after_results_simp
  rfl

/-- The second weight table of the vertices' head, transposed. -/
theorem read_v46 : after (opsV1 (F := Ideal)) V (main_v46 : DevRef τ sig)
    = transpose S128x128 [1, 0] (V (main_arg6 : DevRef τ sig)) transposes_S128x128_S128x128_1_0 := by
  after_results

set_option maxHeartbeats 4000000 in
/-- The second layer of the vertices' head, over what the first layer left. -/
theorem read_v51 : after (opsV2 (F := Ideal)) V (main_v51 : DevRef τ sig)
    = layerT dot_S100000x128_S128x128_S100000x128_1_0_0_1_n_n bcast_S128_S1x128_1 bcast_S1x128_S100000x128_0_1
        bcast_S_S100000x128 (V (main_v45 : DevRef τ sig)) (V (main_v46 : DevRef τ sig)) (V (main_arg7 : DevRef τ sig)) := by
  after_results_simp
  rfl

set_option maxHeartbeats 4000000 in
/-- The two layers of the faces' head. -/
theorem read_v63 : after (opsH (F := Ideal)) V (main_v63 : DevRef τ sig)
    = layerArr dot_S200000x128_S128x128_S200000x128_1_0_0_1_n_n transposes_S128x128_S128x128_1_0 bcast_S128_S1x128_1
        bcast_S1x128_S200000x128_0_1 bcast_S_S200000x128
        (layerArr dot_S200000x256_S256x128_S200000x128_1_0_0_1_n_n transposes_S128x256_S256x128_1_0 bcast_S128_S1x128_1
          bcast_S1x128_S200000x128_0_1 bcast_S_S200000x128 (V (main_v39 : DevRef τ sig)) (V (main_arg8 : DevRef τ sig)) (V (main_arg9 : DevRef τ sig)))
        (V (main_arg10 : DevRef τ sig)) (V (main_arg11 : DevRef τ sig)) := by
  after_results_simp
  rfl

end Cert.RefSide

end
-- ==== Proof.RefDots.lean ====
/-
  The four matrix products of the reference program are plain products.

  Each of the program's four dimension records contracts the left operand's second axis against the right operand's
  first and keeps the other two axes in order: the facts the product's reading asks for hold by computation on the
  records' literal lists.
-/
import proofs.«161651_j40544491274781_1_alg».proof.ReferenceIdeal
import proofs.«161651_j40544491274781_1_alg».proof.Proof.RefHead

noncomputable section

namespace Cert.RefSide

open Cert.ReferenceIdeal Idealize.ShloMosaic

variable [Cert.ReferenceIdeal.Facts]

theorem plain_dotV1 : PlainDot dot_S100000x256_S256x128_S100000x128_1_0_0_1_n_n where
  hlc := rfl
  hrc := rfl
  hl0 := fun _ _ => rfl
  hr1 := fun _ _ => rfl
  hrank := rfl
  hsize := rfl

theorem plain_dotV2 : PlainDot dot_S100000x128_S128x128_S100000x128_1_0_0_1_n_n where
  hlc := rfl
  hrc := rfl
  hl0 := fun _ _ => rfl
  hr1 := fun _ _ => rfl
  hrank := rfl
  hsize := rfl

theorem plain_dotF1 : PlainDot dot_S200000x256_S256x128_S200000x128_1_0_0_1_n_n where
  hlc := rfl
  hrc := rfl
  hl0 := fun _ _ => rfl
  hr1 := fun _ _ => rfl
  hrank := rfl
  hsize := rfl

theorem plain_dotF2 : PlainDot dot_S200000x128_S128x128_S200000x128_1_0_0_1_n_n where
  hlc := rfl
  hrc := rfl
  hl0 := fun _ _ => rfl
  hr1 := fun _ _ => rfl
  hrank := rfl
  hsize := rfl

end Cert.RefSide

end
-- ==== Proof.RefSide.lean ====
/-
  The reference program's side of the comparison.

  Every weakly fair execution of the reference program terminates; at the end its first result is the two-layer head
  applied to the vertices' feature table with the first four weight arrays, its second result is the head applied to the
  faces' feature table with the last four, and the twelve argument arrays are what they were at the launch.

  The run leaves in every buffer the fold of the program's operations over the launch contents. The fold is taken list by
  list: the feature tables' operations leave the two tables; the two layers of the vertices' head, read as whole-table
  operations, are the head of the specification entry by entry, and so are the two layers of the faces' head; a buffer a
  list does not write passes through it unchanged.
-/
import proofs.«161651_j40544491274781_1_alg».proof.Proof.RefRun
import proofs.«161651_j40544491274781_1_alg».proof.Proof.RefKeep
import proofs.«161651_j40544491274781_1_alg».proof.Proof.RefRead
import proofs.«161651_j40544491274781_1_alg».proof.Proof.RefDots
import proofs.«161651_j40544491274781_1_alg».proof.Proof.HeadSpec
import proofs.«161651_j40544491274781_1_alg».proof.Proof.Fusion
import Idealize.ShloMosaic.Lib.StableHlo.Run

noncomputable section

open Idealize.ShloMosaic Idealize.ShloMosaic.TcCoe Idealize.SL.Sem

namespace Cert.RefSide

open Cert.HeadSpec Cert.KernelIdeal.Fused

section Fold

open Cert.ReferenceIdeal Idealize.ShloMosaic.StableHlo
open Cert.ReferenceIdeal.Facts₀ Cert.ReferenceIdeal.Facts

variable [Cert.KernelIdeal.Facts] [Cert.ReferenceIdeal.Facts] (V : Valuation τ sig (Elt Ideal))

/-- After the whole line the first result buffer holds the head of the vertices' feature table. -/
theorem out_v51 : after (ops (F := Ideal)) V (main_v51 : DevRef τ sig)
    = headTable (N := 100000) (fusedV (F := Ideal) (V (main_arg0 : DevRef τ sig)) (V (main_arg1 : DevRef τ sig)) (V (main_arg2 : DevRef τ sig)) (V (main_arg3 : DevRef τ sig)))
        (V (main_arg4 : DevRef τ sig)) (V (main_arg5 : DevRef τ sig)) (V (main_arg6 : DevRef τ sig)) (V (main_arg7 : DevRef τ sig)) := by
  rw [after_ops, keepH _ (by decide : main_v51 ∉ wH), read_v51, read_v45, read_v46, keepV1 _ (by decide : main_arg7 ∉ wV1), read_v19,
    keepF _ (by decide : main_arg4 ∉ wF), keepF _ (by decide : main_arg5 ∉ wF), keepF _ (by decide : main_arg6 ∉ wF), keepF _ (by decide : main_arg7 ∉ wF)]
  exact layers_eq_headTable (N := 100000) dot_S100000x256_S256x128_S100000x128_1_0_0_1_n_n
    dot_S100000x128_S128x128_S100000x128_1_0_0_1_n_n plain_dotV1 plain_dotV2 transposes_S128x256_S256x128_1_0
    transposes_S128x128_S128x128_1_0 bcast_S128_S1x128_1 bcast_S1x128_S100000x128_0_1 bcast_S_S100000x128 _ _ _ _ _

/-- After the whole line the second result buffer holds the head of the faces' feature table. -/
theorem out_v63 : after (ops (F := Ideal)) V (main_v63 : DevRef τ sig)
    = headTable (N := 200000) (fusedF (F := Ideal) (V (main_arg0 : DevRef τ sig)) (V (main_arg1 : DevRef τ sig)) (V (main_arg2 : DevRef τ sig)) (V (main_arg3 : DevRef τ sig)))
        (V (main_arg8 : DevRef τ sig)) (V (main_arg9 : DevRef τ sig)) (V (main_arg10 : DevRef τ sig)) (V (main_arg11 : DevRef τ sig)) := by
  rw [after_ops, read_v63,
    keepV2 _ (by decide : main_v39 ∉ wV2), keepV2 _ (by decide : main_arg8 ∉ wV2), keepV2 _ (by decide : main_arg9 ∉ wV2), keepV2 _ (by decide : main_arg10 ∉ wV2), keepV2 _ (by decide : main_arg11 ∉ wV2),
    keepV1 _ (by decide : main_v39 ∉ wV1), keepV1 _ (by decide : main_arg8 ∉ wV1), keepV1 _ (by decide : main_arg9 ∉ wV1), keepV1 _ (by decide : main_arg10 ∉ wV1), keepV1 _ (by decide : main_arg11 ∉ wV1),
    read_v39, keepF _ (by decide : main_arg8 ∉ wF), keepF _ (by decide : main_arg9 ∉ wF), keepF _ (by decide : main_arg10 ∉ wF), keepF _ (by decide : main_arg11 ∉ wF)]
  exact layers_eq_headTable (N := 200000) dot_S200000x256_S256x128_S200000x128_1_0_0_1_n_n
    dot_S200000x128_S128x128_S200000x128_1_0_0_1_n_n plain_dotF1 plain_dotF2 transposes_S128x256_S256x128_1_0
    transposes_S128x128_S128x128_1_0 bcast_S128_S1x128_1 bcast_S1x128_S200000x128_0_1 bcast_S_S200000x128 _ _ _ _ _

/-- After the whole line an argument array holds what it held at the launch. -/
theorem out_arg {r : Ref sig .tc} (hF : r ∉ wF) (h1 : r ∉ wV1) (h2 : r ∉ wV2) (hH : r ∉ wH) :
    after (ops (F := Ideal)) V (r : DevRef τ sig) = V (r : DevRef τ sig) := keep_all V hF h1 h2 hH

end Fold

/-- Every weakly fair execution of the reference program terminates with its two results the heads of the two feature
    tables and its twelve argument arrays unchanged. -/
theorem run [Cert.KernelIdeal.Facts] [Cert.ReferenceIdeal.Facts]
    (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
      r.2.mem ((c.tc : Thread Cert.ReferenceIdeal.nD Cert.ReferenceIdeal.τ).loc Cert.ReferenceIdeal.main_v51)
        = headTable (N := 100000) (fusedV (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))
      ∧ r.2.mem ((c.tc : Thread Cert.ReferenceIdeal.nD Cert.ReferenceIdeal.τ).loc Cert.ReferenceIdeal.main_v63)
        = headTable (N := 200000) (fusedF (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)) :=
  (θ_run (Cert.ReferenceIdeal.defs (F := Ideal)) _ _).mono (fun _ h c =>
    ⟨(h c Cert.ReferenceIdeal.main_v51).trans (out_v51 _), (h c Cert.ReferenceIdeal.main_v63).trans (out_v63 _),
      (h c Cert.ReferenceIdeal.main_arg0).trans (out_arg _ (by decide) (by decide) (by decide) (by decide)),
      (h c Cert.ReferenceIdeal.main_arg1).trans (out_arg _ (by decide) (by decide) (by decide) (by decide)),
      (h c Cert.ReferenceIdeal.main_arg2).trans (out_arg _ (by decide) (by decide) (by decide) (by decide)),
      (h c Cert.ReferenceIdeal.main_arg3).trans (out_arg _ (by decide) (by decide) (by decide) (by decide)),
      (h c Cert.ReferenceIdeal.main_arg4).trans (out_arg _ (by decide) (by decide) (by decide) (by decide)),
      (h c Cert.ReferenceIdeal.main_arg5).trans (out_arg _ (by decide) (by decide) (by decide) (by decide)),
      (h c Cert.ReferenceIdeal.main_arg6).trans (out_arg _ (by decide) (by decide) (by decide) (by decide)),
      (h c Cert.ReferenceIdeal.main_arg7).trans (out_arg _ (by decide) (by decide) (by decide) (by decide)),
      (h c Cert.ReferenceIdeal.main_arg8).trans (out_arg _ (by decide) (by decide) (by decide) (by decide)),
      (h c Cert.ReferenceIdeal.main_arg9).trans (out_arg _ (by decide) (by decide) (by decide) (by decide)),
      (h c Cert.ReferenceIdeal.main_arg10).trans (out_arg _ (by decide) (by decide) (by decide) (by decide)),
      (h c Cert.ReferenceIdeal.main_arg11).trans (out_arg _ (by decide) (by decide) (by decide) (by decide))⟩)
    (run_main (F := Ideal) m ρ)

end Cert.RefSide

end
-- ==== Proof.lean ====
/-
  The certificate: a fused two-layer head over two graph feature tables, against its plain reference.

  Both programs first build the same two tables from the graph inputs — per vertex, its own 128 features followed by the
  mean of the face rows its edges name; per face, the same with the roles exchanged — by the same host operations. The
  kernel program then runs, for each table, one pipelined region over blocks of 5000 rows: a product with the first
  weight table contracted row against row, a bias row, a leaky rectifier, a product with the second weight table, a bias
  row, a leaky rectifier. The reference does the same with whole-table products against the transposed weight tables and
  the rectifier spelt as a comparison, a product with the slope and a selection.

  On the extended reals a change of float format is the identity and both kinds of product are the same finite sum, so
  both programs leave, at row p and column q of each result, the same number: the head's entry q for row p of the table
  (Proof/HeadSpec.lean). The kernel's side is Proof/KerSide.lean (the run of the two regions with the results named, the
  body at an index, the blocks tiling the tables, the host operations read back); the reference's side is
  Proof/RefSide.lean (its run as a list of host operations, each stage read at an index). Neither side needs the inputs
  to be finite: the only law used between the two sides is that multiplication commutes. The kernel's idealization
  rewrote nothing, so that conjunct is trivial; the three frames are the generated frame certificates and the
  reference's run with its results dropped.
-/
import proofs.«161651_j40544491274781_1_alg».proof.Defs
import proofs.«161651_j40544491274781_1_alg».proof.Proof.Gen.Kernel
import proofs.«161651_j40544491274781_1_alg».proof.Proof.Gen.Kernel.Frame
import proofs.«161651_j40544491274781_1_alg».proof.Proof.Gen.KernelIdeal
import proofs.«161651_j40544491274781_1_alg».proof.Proof.Gen.KernelIdeal.Frame
import proofs.«161651_j40544491274781_1_alg».proof.Proof.Gen.ReferenceIdeal
import proofs.«161651_j40544491274781_1_alg».proof.Proof.Gen.Pre_finite_inputs
import proofs.«161651_j40544491274781_1_alg».proof.Proof.KerSide
import proofs.«161651_j40544491274781_1_alg».proof.Proof.RefSide
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.RefSide.run m ρ)

theorem preserves : Cert.preserves_Kernel_KernelIdeal := trivial

/-- From memories agreeing on the arguments both programs end with each result the head of the same table of the same
    arguments. -/
theorem algebraic : Cert.algebraic_KernelIdeal_ReferenceIdeal := by
  intro m ρ m' ρ' _ hagree
  refine ⟨_, _, Cert.KerSide.run m ρ, ?_⟩
  refine (θ_run Cert.ReferenceIdeal.defs _ _).mono (fun _ h c => ?_) (Cert.RefSide.run m' ρ')
  obtain ⟨a0, a1, a2, a3, a4, a5, a6, a7, a8, a9, a10, a11⟩ := hagree c
  refine ⟨(h c).1.trans ?_, (h c).2.1.trans ?_, (h c).2.2⟩
  · rw [a0, a1, a2, a3, a4, a5, a6, a7]
  · rw [a0, a1, a2, a3, a8, a9, a10, a11]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
